-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v61)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v61) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_v63) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1000000x3 : Shape := ⟨2, ![1000000, 3]⟩
abbrev S8000000x1 : Shape := ⟨2, ![8000000, 1]⟩
abbrev S1000000x1 : Shape := ⟨2, ![1000000, 1]⟩
abbrev S8000000x2 : Shape := ⟨2, ![8000000, 2]⟩
abbrev S_ : Shape := ⟨0, ![]⟩

class Facts : Prop where
  bcast_S_S1000000x3 : S_.BroadcastsInDim S1000000x3 (![] : Fin 0 → Fin S1000000x3.rank)
  reducesTo_S1000000x3_S_d0_1 : S1000000x3.ReducesTo [0, 1] S_
  h_S_ : 0 < S_.numel
  bcast_S_S8000000x1 : S_.BroadcastsInDim S8000000x1 (![] : Fin 0 → Fin S8000000x1.rank)
  reducesTo_S8000000x1_S_d0_1 : S8000000x1.ReducesTo [0, 1] S_
  bcast_S_S1000000x1 : S_.BroadcastsInDim S1000000x1 (![] : Fin 0 → Fin S1000000x1.rank)
  reducesTo_S1000000x1_S_d0_1 : S1000000x1.ReducesTo [0, 1] S_

variable [Facts]

def fn_part1 {F : FTy → Type} [FloatOps F] (main_arg5 : FVec F S8000000x1 .f32) (main_v13 : IVec S_ 1) (main_v16 : IVec S1000000x1 1) : IVec S_ 1 :=
  let main_c_5 : IVec S_ 1 := constantI S_ 1 1#1
  let main_v17 : IVec S_ 1 := (fun x v => Host.reduce IntOp.andi x v reducesTo_S1000000x1_S_d0_1 h_S_) main_v16 main_c_5
  let main_v18 : IVec S_ 1 := andi main_v13 main_v17
  let main_v19 : FVec F S8000000x1 .f32 := Host.absf main_arg5
  let main_cst_6 : FVec F S_ .f32 := constant S_ .f32 0x7F800000#32
  let main_v20 : FVec F S8000000x1 .f32 := broadcastInDim S8000000x1 ![] bcast_S_S8000000x1 main_cst_6
  let main_v21 : IVec S8000000x1 1 := cmpf .olt main_v19 main_v20
  let main_c_7 : IVec S_ 1 := constantI S_ 1 1#1
  let main_v22 : IVec S_ 1 := (fun x v => Host.reduce IntOp.andi x v reducesTo_S8000000x1_S_d0_1 h_S_) main_v21 main_c_7
  let main_v23 : IVec S_ 1 := andi main_v18 main_v22
  main_v23

def fn {F : FTy → Type} [FloatOps F] (main_arg0 : FVec F S1000000x3 .f32) (main_arg1 : FVec F S8000000x1 .f32) (main_arg2 : FVec F S1000000x1 .f32) (main_arg3 : FVec F S1000000x1 .f32) (main_arg4 : IVec S8000000x2 32) (main_arg5 : FVec F S8000000x1 .f32) : IVec S_ 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_c : IVec S_ 1 := constantI S_ 1 1#1
  let main_v3 : IVec S_ 1 := (fun x v => Host.reduce IntOp.andi x v reducesTo_S1000000x3_S_d0_1 h_S_) main_v2 main_c
  let main_v4 : FVec F S8000000x1 .f32 := Host.absf main_arg1
  let main_cst_0 : FVec F S_ .f32 := constant S_ .f32 0x7F800000#32
  let main_v5 : FVec F S8000000x1 .f32 := broadcastInDim S8000000x1 ![] bcast_S_S8000000x1 main_cst_0
  let main_v6 : IVec S8000000x1 1 := cmpf .olt main_v4 main_v5
  let main_c_1 : IVec S_ 1 := constantI S_ 1 1#1
  let main_v7 : IVec S_ 1 := (fun x v => Host.reduce IntOp.andi x v reducesTo_S8000000x1_S_d0_1 h_S_) main_v6 main_c_1
  let main_v8 : IVec S_ 1 := andi main_v3 main_v7
  let main_v9 : FVec F S1000000x1 .f32 := Host.absf main_arg2
  let main_cst_2 : FVec F S_ .f32 := constant S_ .f32 0x7F800000#32
  let main_v10 : FVec F S1000000x1 .f32 := broadcastInDim S1000000x1 ![] bcast_S_S1000000x1 main_cst_2
  let main_v11 : IVec S1000000x1 1 := cmpf .olt main_v9 main_v10
  let main_c_3 : IVec S_ 1 := constantI S_ 1 1#1
  let main_v12 : IVec S_ 1 := (fun x v => Host.reduce IntOp.andi x v reducesTo_S1000000x1_S_d0_1 h_S_) main_v11 main_c_3
  let main_v13 : IVec S_ 1 := andi main_v8 main_v12
  let main_v14 : FVec F S1000000x1 .f32 := Host.absf main_arg3
  let main_cst_4 : FVec F S_ .f32 := constant S_ .f32 0x7F800000#32
  let main_v15 : FVec F S1000000x1 .f32 := broadcastInDim S1000000x1 ![] bcast_S_S1000000x1 main_cst_4
  let main_v16 : IVec S1000000x1 1 := cmpf .olt main_v14 main_v15
  fn_part1 (F := F) main_arg5 main_v13 main_v16
-- ==== Kernel.lean ====
abbrev S1000000x3 : Shape := ⟨2, ![1000000, 3]⟩
abbrev S8000000x1 : Shape := ⟨2, ![8000000, 1]⟩
abbrev S1000000x1 : Shape := ⟨2, ![1000000, 1]⟩
abbrev S8000000x2 : Shape := ⟨2, ![8000000, 2]⟩
abbrev S8000000 : Shape := ⟨1, ![8000000]⟩
abbrev S_ : Shape := ⟨0, ![]⟩
abbrev S8000000x3 : Shape := ⟨2, ![8000000, 3]⟩
abbrev S3x8000000 : Shape := ⟨2, ![3, 8000000]⟩
abbrev S6x8000000 : Shape := ⟨2, ![6, 8000000]⟩
abbrev S1x8000000 : Shape := ⟨2, ![1, 8000000]⟩
abbrev S6x32000 : Shape := ⟨2, ![6, 32000]⟩
abbrev S1x32000 : Shape := ⟨2, ![1, 32000]⟩
abbrev S3x32000 : Shape := ⟨2, ![3, 32000]⟩
abbrev S32000 : Shape := ⟨1, ![32000]⟩

abbrev nBuf : Space → Nat
  | .hbm => 99
  | .vmem => 8
  | .smem => 0
  | _ => 0

abbrev bufTy : (tb : Table) → Fin (tcTables nBuf tb) → BufTy
  | .hbm, ⟨0, _⟩ => ⟨S1000000x3, .f32⟩
  | .hbm, ⟨1, _⟩ => ⟨S8000000x1, .f32⟩
  | .hbm, ⟨2, _⟩ => ⟨S1000000x1, .f32⟩
  | .hbm, ⟨3, _⟩ => ⟨S1000000x1, .f32⟩
  | .hbm, ⟨4, _⟩ => ⟨S8000000x2, .i32⟩
  | .hbm, ⟨5, _⟩ => ⟨S8000000x1, .f32⟩
  | .hbm, ⟨6, _⟩ => ⟨S8000000x1, .i32⟩
  | .hbm, ⟨7, _⟩ => ⟨S8000000, .i32⟩
  | .hbm, ⟨8, _⟩ => ⟨S8000000x1, .i32⟩
  | .hbm, ⟨9, _⟩ => ⟨S8000000, .i32⟩
  | .hbm, ⟨10, _⟩ => ⟨S_, .i32⟩
  | .hbm, ⟨11, _⟩ => ⟨S8000000, .i32⟩
  | .hbm, ⟨12, _⟩ => ⟨S8000000, .i1⟩
  | .hbm, ⟨13, _⟩ => ⟨S_, .i32⟩
  | .hbm, ⟨14, _⟩ => ⟨S8000000, .i32⟩
  | .hbm, ⟨15, _⟩ => ⟨S8000000, .i32⟩
  | .hbm, ⟨16, _⟩ => ⟨S8000000, .i32⟩
  | .hbm, ⟨17, _⟩ => ⟨S8000000x1, .i32⟩
  | .hbm, ⟨18, _⟩ => ⟨S8000000x3, .f32⟩
  | .hbm, ⟨19, _⟩ => ⟨S_, .i32⟩
  | .hbm, ⟨20, _⟩ => ⟨S8000000, .i32⟩
  | .hbm, ⟨21, _⟩ => ⟨S8000000, .i1⟩
  | .hbm, ⟨22, _⟩ => ⟨S_, .i32⟩
  | .hbm, ⟨23, _⟩ => ⟨S8000000, .i32⟩
  | .hbm, ⟨24, _⟩ => ⟨S8000000, .i32⟩
  | .hbm, ⟨25, _⟩ => ⟨S8000000, .i32⟩
  | .hbm, ⟨26, _⟩ => ⟨S8000000x1, .i32⟩
  | .hbm, ⟨27, _⟩ => ⟨S8000000x3, .f32⟩
  | .hbm, ⟨28, _⟩ => ⟨S_, .i32⟩
  | .hbm, ⟨29, _⟩ => ⟨S8000000, .i32⟩
  | .hbm, ⟨30, _⟩ => ⟨S8000000, .i1⟩
  | .hbm, ⟨31, _⟩ => ⟨S_, .i32⟩
  | .hbm, ⟨32, _⟩ => ⟨S8000000, .i32⟩
  | .hbm, ⟨33, _⟩ => ⟨S8000000, .i32⟩
  | .hbm, ⟨34, _⟩ => ⟨S8000000, .i32⟩
  | .hbm, ⟨35, _⟩ => ⟨S8000000x1, .i32⟩
  | .hbm, ⟨36, _⟩ => ⟨S8000000x1, .f32⟩
  | .hbm, ⟨37, _⟩ => ⟨S_, .i32⟩
  | .hbm, ⟨38, _⟩ => ⟨S8000000, .i32⟩
  | .hbm, ⟨39, _⟩ => ⟨S8000000, .i1⟩
  | .hbm, ⟨40, _⟩ => ⟨S_, .i32⟩
  | .hbm, ⟨41, _⟩ => ⟨S8000000, .i32⟩
  | .hbm, ⟨42, _⟩ => ⟨S8000000, .i32⟩
  | .hbm, ⟨43, _⟩ => ⟨S8000000, .i32⟩
  | .hbm, ⟨44, _⟩ => ⟨S8000000x1, .i32⟩
  | .hbm, ⟨45, _⟩ => ⟨S8000000x1, .f32⟩
  | .hbm, ⟨46, _⟩ => ⟨S_, .i32⟩
  | .hbm, ⟨47, _⟩ => ⟨S8000000, .i32⟩
  | .hbm, ⟨48, _⟩ => ⟨S8000000, .i1⟩
  | .hbm, ⟨49, _⟩ => ⟨S_, .i32⟩
  | .hbm, ⟨50, _⟩ => ⟨S8000000, .i32⟩
  | .hbm, ⟨51, _⟩ => ⟨S8000000, .i32⟩
  | .hbm, ⟨52, _⟩ => ⟨S8000000, .i32⟩
  | .hbm, ⟨53, _⟩ => ⟨S8000000x1, .i32⟩
  | .hbm, ⟨54, _⟩ => ⟨S8000000x1, .f32⟩
  | .hbm, ⟨55, _⟩ => ⟨S_, .i32⟩
  | .hbm, ⟨56, _⟩ => ⟨S8000000, .i32⟩
  | .hbm, ⟨57, _⟩ => ⟨S8000000, .i1⟩
  | .hbm, ⟨58, _⟩ => ⟨S_, .i32⟩
  | .hbm, ⟨59, _⟩ => ⟨S8000000, .i32⟩
  | .hbm, ⟨60, _⟩ => ⟨S8000000, .i32⟩
  | .hbm, ⟨61, _⟩ => ⟨S8000000, .i32⟩
  | .hbm, ⟨62, _⟩ => ⟨S8000000x1, .i32⟩
  | .hbm, ⟨63, _⟩ => ⟨S8000000x1, .f32⟩
  | .hbm, ⟨64, _⟩ => ⟨S3x8000000, .f32⟩
  | .hbm, ⟨65, _⟩ => ⟨S3x8000000, .f32⟩
  | .hbm, ⟨66, _⟩ => ⟨S6x8000000, .f32⟩
  | .hbm, ⟨67, _⟩ => ⟨S1x8000000, .f32⟩
  | .hbm, ⟨68, _⟩ => ⟨S1x8000000, .f32⟩
  | .hbm, ⟨69, _⟩ => ⟨S1x8000000, .f32⟩
  | .hbm, ⟨70, _⟩ => ⟨S1x8000000, .f32⟩
  | .hbm, ⟨71, _⟩ => ⟨S1x8000000, .f32⟩
  | .hbm, ⟨72, _⟩ => ⟨S1x8000000, .f32⟩
  | .hbm, ⟨73, _⟩ => ⟨S6x8000000, .f32⟩
  | .hbm, ⟨74, _⟩ => ⟨S6x8000000, .f32⟩
  | .hbm, ⟨75, _⟩ => ⟨S1x8000000, .f32⟩
  | .hbm, ⟨76, _⟩ => ⟨S3x8000000, .f32⟩
  | .hbm, ⟨77, _⟩ => ⟨S8000000x3, .f32⟩
  | .hbm, ⟨78, _⟩ => ⟨S3x8000000, .f32⟩
  | .hbm, ⟨79, _⟩ => ⟨S8000000x3, .f32⟩
  | .hbm, ⟨80, _⟩ => ⟨S8000000x1, .f32⟩
  | .hbm, ⟨81, _⟩ => ⟨S_, .i32⟩
  | .hbm, ⟨82, _⟩ => ⟨S8000000, .i32⟩
  | .hbm, ⟨83, _⟩ => ⟨S8000000, .i1⟩
  | .hbm, ⟨84, _⟩ => ⟨S_, .i32⟩
  | .hbm, ⟨85, _⟩ => ⟨S8000000, .i32⟩
  | .hbm, ⟨86, _⟩ => ⟨S8000000, .i32⟩
  | .hbm, ⟨87, _⟩ => ⟨S8000000, .i32⟩
  | .hbm, ⟨88, _⟩ => ⟨S8000000x1, .i32⟩
  | .hbm, ⟨89, _⟩ => ⟨S1000000x3, .f32⟩
  | .hbm, ⟨90, _⟩ => ⟨S_, .i32⟩
  | .hbm, ⟨91, _⟩ => ⟨S8000000, .i32⟩
  | .hbm, ⟨92, _⟩ => ⟨S8000000, .i1⟩
  | .hbm, ⟨93, _⟩ => ⟨S_, .i32⟩
  | .hbm, ⟨94, _⟩ => ⟨S8000000, .i32⟩
  | .hbm, ⟨95, _⟩ => ⟨S8000000, .i32⟩
  | .hbm, ⟨96, _⟩ => ⟨S8000000, .i32⟩
  | .hbm, ⟨97, _⟩ => ⟨S8000000x1, .i32⟩
  | .hbm, ⟨98, _⟩ => ⟨S1000000x3, .f32⟩
  | .local _ .vmem, ⟨0, _⟩ => ⟨S6x32000, .f32⟩
  | .local _ .vmem, ⟨1, _⟩ => ⟨S6x32000, .f32⟩
  | .local _ .vmem, ⟨2, _⟩ => ⟨S6x32000, .f32⟩
  | .local _ .vmem, ⟨3, _⟩ => ⟨S6x32000, .f32⟩
  | .local _ .vmem, ⟨4, _⟩ => ⟨S6x32000, .f32⟩
  | .local _ .vmem, ⟨5, _⟩ => ⟨S6x32000, .f32⟩
  | .local _ .vmem, ⟨6, _⟩ => ⟨S1x32000, .f32⟩
  | .local _ .vmem, ⟨7, _⟩ => ⟨S1x32000, .f32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_c_3 : Ref sig .tc := ⟨.hbm, 28, rfl⟩
abbrev main_v18 : Ref sig .tc := ⟨.hbm, 29, rfl⟩
abbrev main_v19 : Ref sig .tc := ⟨.hbm, 30, rfl⟩
abbrev main_c_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_c_5 : Ref sig .tc := ⟨.hbm, 37, rfl⟩
abbrev main_v25 : Ref sig .tc := ⟨.hbm, 38, rfl⟩
abbrev main_v26 : Ref sig .tc := ⟨.hbm, 39, rfl⟩
abbrev main_c_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_c_7 : Ref sig .tc := ⟨.hbm, 46, rfl⟩
abbrev main_v32 : Ref sig .tc := ⟨.hbm, 47, rfl⟩
abbrev main_v33 : Ref sig .tc := ⟨.hbm, 48, rfl⟩
abbrev main_c_8 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_c_9 : Ref sig .tc := ⟨.hbm, 55, rfl⟩
abbrev main_v39 : Ref sig .tc := ⟨.hbm, 56, rfl⟩
abbrev main_v40 : Ref sig .tc := ⟨.hbm, 57, rfl⟩
abbrev main_c_10 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56_0 : Ref sig .tc := ⟨.hbm, 74, rfl⟩
abbrev main_v56_1 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_c_11 : Ref sig .tc := ⟨.hbm, 81, rfl⟩
abbrev main_v62 : Ref sig .tc := ⟨.hbm, 82, rfl⟩
abbrev main_v63 : Ref sig .tc := ⟨.hbm, 83, rfl⟩
abbrev main_c_12 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_c_13 : Ref sig .tc := ⟨.hbm, 90, rfl⟩
abbrev main_v69 : Ref sig .tc := ⟨.hbm, 91, rfl⟩
abbrev main_v70 : Ref sig .tc := ⟨.hbm, 92, rfl⟩
abbrev main_c_14 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S6x32000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6x32000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S6x32000 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x32000 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  transposes_S8000000x3_S3x8000000_1_0 : S8000000x3.Transposes [1, 0] S3x8000000
  concatenates_S3x8000000_S3x8000000_S6x8000000_d0 : Shape.Concatenates [S3x8000000, S3x8000000] S6x8000000 0
  transposes_S8000000x1_S1x8000000_1_0 : S8000000x1.Transposes [1, 0] S1x8000000
  concatenates_S1x8000000_S1x8000000_S1x8000000_S1x8000000_S1x8000000_S1x8000000_S6x8000000_d0 : Shape.Concatenates [S1x8000000, S1x8000000, S1x8000000, S1x8000000, S1x8000000, S1x8000000] S6x8000000 0
  inb_S6x32000_S6x32000_0_0 : ∀ a, (![0, 0] : Fin 2 → Nat) a + S6x32000.size a ≤ S6x32000.size a
  h_S6x32000 : 0 < S6x32000.numel
  shapeCasts_S6x32000_S6x32000 : S6x32000.ShapeCasts S6x32000
  slices_S6x32000_o0_0_S3x32000 : S6x32000.Slices ![0, 0] S3x32000
  slices_S6x32000_o3_0_S3x32000 : S6x32000.Slices ![3, 0] S3x32000
  slices_S6x32000_o0_0_S1x32000 : S6x32000.Slices ![0, 0] S1x32000
  slices_S6x32000_o1_0_S1x32000 : S6x32000.Slices ![1, 0] S1x32000
  slices_S6x32000_o2_0_S1x32000 : S6x32000.Slices ![2, 0] S1x32000
  slices_S6x32000_o3_0_S1x32000 : S6x32000.Slices ![3, 0] S1x32000
  slices_S6x32000_o4_0_S1x32000 : S6x32000.Slices ![4, 0] S1x32000
  slices_S6x32000_o5_0_S1x32000 : S6x32000.Slices ![5, 0] S1x32000
  reduces_S3x32000_S32000 : S3x32000.Reduces [0] S32000
  shapeCasts_S32000_S1x32000 : S32000.ShapeCasts S1x32000
  broadcasts_S1x32000_S3x32000 : S1x32000.Broadcasts S3x32000
  concatenates_S3x32000_S3x32000_S6x32000_d0 : Shape.Concatenates [S3x32000, S3x32000] S6x32000 0
  inb_S1x32000_S1x32000_0_0 : ∀ a, (![0, 0] : Fin 2 → Nat) a + S1x32000.size a ≤ S1x32000.size a
  h_S1x32000 : 0 < S1x32000.numel
  slices_S6x8000000_S3x8000000_0_0 : S6x8000000.Slices ![0, 0] S3x8000000
  transposes_S3x8000000_S8000000x3_1_0 : S3x8000000.Transposes [1, 0] S8000000x3
  slices_S6x8000000_S3x8000000_3_0 : S6x8000000.Slices ![3, 0] S3x8000000
  transposes_S1x8000000_S8000000x1_1_0 : S1x8000000.Transposes [1, 0] S8000000x1
  gather_S1000000x3_S8000000x1_S8000000x3_1_0_n_n_0_1_13_wf : GatherDims.WF S1000000x3 S8000000x1 S8000000x3 [1] [0] [] [0] [] 1 ![1, 3]
  gather_S1000000x1_S8000000x1_S8000000x1_1_0_n_n_0_1_11_wf : GatherDims.WF S1000000x1 S8000000x1 S8000000x1 [1] [0] [] [0] [] 1 ![1, 1]
  scatter_S1000000x3_S8000000x1_S8000000x3_1_0_0_1_wf : ScatterDims.WF S1000000x3 S8000000x1 S8000000x3 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6x32000.size a ≤ S6x8000000.size a
  hwx0_0 : ∀ i : grid0.Coords, EltTy.bits .f32 = 32 ∨ (Rect.block (s := S6x8000000) S6x32000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6x32000.size a ≤ S6x8000000.size a
  hwx0_1 : ∀ i : grid0.Coords, EltTy.bits .f32 = 32 ∨ (Rect.block (s := S6x8000000) S6x32000.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S6x32000.size a ≤ S6x8000000.size a
  hwx0_2 : ∀ i : grid0.Coords, EltTy.bits .f32 = 32 ∨ (Rect.block (s := S6x8000000) S6x32000.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32000.size a ≤ S1x8000000.size a
  hwx0_3 : ∀ i : grid0.Coords, EltTy.bits .f32 = 32 ∨ (Rect.block (s := S1x8000000) S1x32000.size (cc0_transform_3 i) (hinb0_3 i)).WholeWords (EltTy.packing .f32)

variable [Facts₀]

def gather_S1000000x3_S8000000x1_S8000000x3_1_0_n_n_0_1_13 : GatherDims S1000000x3 S8000000x1 S8000000x3 where
  offsetDims := [1]
  collapsedSliceDims := [0]
  operandBatchingDims := []
  startIndicesBatchingDims := []
  startIndexMap := [0]
  indexVectorDim := 1
  sliceSizes := ![1, 3]
  wf := gather_S1000000x3_S8000000x1_S8000000x3_1_0_n_n_0_1_13_wf
def gather_S1000000x1_S8000000x1_S8000000x1_1_0_n_n_0_1_11 : GatherDims S1000000x1 S8000000x1 S8000000x1 where
  offsetDims := [1]
  collapsedSliceDims := [0]
  operandBatchingDims := []
  startIndicesBatchingDims := []
  startIndexMap := [0]
  indexVectorDim := 1
  sliceSizes := ![1, 1]
  wf := gather_S1000000x1_S8000000x1_S8000000x1_1_0_n_n_0_1_11_wf
def scatter_S1000000x3_S8000000x1_S8000000x3_1_0_0_1 : ScatterDims S1000000x3 S8000000x1 S8000000x3 where
  updateWindowDims := [1]
  insertedWindowDims := [0]
  scatterDimsToOperandDims := [0]
  indexVectorDim := 1
  wf := scatter_S1000000x3_S8000000x1_S8000000x3_1_0_0_1_wf

abbrev win0_0 : Pipeline.Window sig grid0 :=
  Pipeline.Window.ofSpec (Memref.whole main_v48) S6x32000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v55) S6x32000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v56_0) S6x32000.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v56_1) S1x32000.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1000000x3 : Shape := ⟨2, ![1000000, 3]⟩
abbrev S8000000x1 : Shape := ⟨2, ![8000000, 1]⟩
abbrev S1000000x1 : Shape := ⟨2, ![1000000, 1]⟩
abbrev S8000000x2 : Shape := ⟨2, ![8000000, 2]⟩
abbrev S8000000 : Shape := ⟨1, ![8000000]⟩
abbrev S_ : Shape := ⟨0, ![]⟩
abbrev S8000000x3 : Shape := ⟨2, ![8000000, 3]⟩

abbrev nBuf : Space → Nat
  | .hbm => 134
  | .vmem => 0
  | .smem => 0
  | _ => 0

abbrev hbmTy0_0 (i : Nat) : BufTy := match i % 128 with
  | 0 => ⟨S1000000x3, .f32⟩
  | 1 => ⟨S8000000x1, .f32⟩
  | 2 => ⟨S1000000x1, .f32⟩
  | 3 => ⟨S1000000x1, .f32⟩
  | 4 => ⟨S8000000x2, .i32⟩
  | 5 => ⟨S8000000x1, .f32⟩
  | 6 => ⟨S8000000x1, .i32⟩
  | 7 => ⟨S8000000, .i32⟩
  | 8 => ⟨S8000000x1, .i32⟩
  | 9 => ⟨S8000000, .i32⟩
  | 10 => ⟨S_, .i32⟩
  | 11 => ⟨S8000000, .i32⟩
  | 12 => ⟨S8000000, .i1⟩
  | 13 => ⟨S_, .i32⟩
  | 14 => ⟨S8000000, .i32⟩
  | 15 => ⟨S8000000, .i32⟩
  | 16 => ⟨S8000000, .i32⟩
  | 17 => ⟨S8000000x1, .i32⟩
  | 18 => ⟨S8000000x3, .f32⟩
  | 19 => ⟨S_, .i32⟩
  | 20 => ⟨S8000000, .i32⟩
  | 21 => ⟨S8000000, .i1⟩
  | 22 => ⟨S_, .i32⟩
  | 23 => ⟨S8000000, .i32⟩
  | 24 => ⟨S8000000, .i32⟩
  | 25 => ⟨S8000000, .i32⟩
  | 26 => ⟨S8000000x1, .i32⟩
  | 27 => ⟨S8000000x3, .f32⟩
  | 28 => ⟨S8000000x3, .f32⟩
  | 29 => ⟨S8000000x3, .f32⟩
  | 30 => ⟨S_, .f32⟩
  | 31 => ⟨S8000000, .f32⟩
  | 32 => ⟨S8000000x1, .f32⟩
  | 33 => ⟨S8000000x1, .f32⟩
  | 34 => ⟨S8000000x1, .f32⟩
  | 35 => ⟨S8000000x3, .f32⟩
  | 36 => ⟨S8000000x3, .f32⟩
  | 37 => ⟨S_, .i32⟩
  | 38 => ⟨S8000000, .i32⟩
  | 39 => ⟨S8000000, .i1⟩
  | 40 => ⟨S_, .i32⟩
  | 41 => ⟨S8000000, .i32⟩
  | 42 => ⟨S8000000, .i32⟩
  | 43 => ⟨S8000000, .i32⟩
  | 44 => ⟨S8000000x1, .i32⟩
  | 45 => ⟨S8000000x1, .f32⟩
  | 46 => ⟨S_, .i32⟩
  | 47 => ⟨S8000000, .i32⟩
  | 48 => ⟨S8000000, .i1⟩
  | 49 => ⟨S_, .i32⟩
  | 50 => ⟨S8000000, .i32⟩
  | 51 => ⟨S8000000, .i32⟩
  | 52 => ⟨S8000000, .i32⟩
  | 53 => ⟨S8000000x1, .i32⟩
  | 54 => ⟨S8000000x1, .f32⟩
  | 55 => ⟨S8000000x1, .f32⟩
  | 56 => ⟨S_, .f32⟩
  | 57 => ⟨S8000000x1, .f32⟩
  | 58 => ⟨S8000000x1, .f32⟩
  | 59 => ⟨S_, .i32⟩
  | 60 => ⟨S8000000, .i32⟩
  | 61 => ⟨S8000000, .i1⟩
  | 62 => ⟨S_, .i32⟩
  | 63 => ⟨S8000000, .i32⟩
  | 64 => ⟨S8000000, .i32⟩
  | 65 => ⟨S8000000, .i32⟩
  | 66 => ⟨S8000000x1, .i32⟩
  | 67 => ⟨S8000000x1, .f32⟩
  | 68 => ⟨S_, .i32⟩
  | 69 => ⟨S8000000, .i32⟩
  | 70 => ⟨S8000000, .i1⟩
  | 71 => ⟨S_, .i32⟩
  | 72 => ⟨S8000000, .i32⟩
  | 73 => ⟨S8000000, .i32⟩
  | 74 => ⟨S8000000, .i32⟩
  | 75 => ⟨S8000000x1, .i32⟩
  | 76 => ⟨S8000000x1, .f32⟩
  | 77 => ⟨S8000000x1, .f32⟩
  | 78 => ⟨S_, .f32⟩
  | 79 => ⟨S8000000x1, .f32⟩
  | 80 => ⟨S8000000x1, .i1⟩
  | 81 => ⟨S_, .f32⟩
  | 82 => ⟨S_, .f32⟩
  | 83 => ⟨S8000000x1, .f32⟩
  | 84 => ⟨S8000000x1, .f32⟩
  | 85 => ⟨S8000000x1, .f32⟩
  | 86 => ⟨S8000000x1, .f32⟩
  | 87 => ⟨S8000000x1, .f32⟩
  | 88 => ⟨S8000000x1, .f32⟩
  | 89 => ⟨S8000000x1, .f32⟩
  | 90 => ⟨S8000000x1, .f32⟩
  | 91 => ⟨S8000000x3, .f32⟩
  | 92 => ⟨S8000000x3, .f32⟩
  | 93 => ⟨S_, .i32⟩
  | 94 => ⟨S8000000, .i32⟩
  | 95 => ⟨S8000000, .i1⟩
  | 96 => ⟨S_, .i32⟩
  | 97 => ⟨S8000000, .i32⟩
  | 98 => ⟨S8000000, .i32⟩
  | 99 => ⟨S8000000, .i32⟩
  | 100 => ⟨S8000000x1, .i32⟩
  | 101 => ⟨S8000000x1, .f32⟩
  | 102 => ⟨S8000000x3, .f32⟩
  | 103 => ⟨S8000000x3, .f32⟩
  | 104 => ⟨S_, .i32⟩
  | 105 => ⟨S8000000, .i32⟩
  | 106 => ⟨S8000000, .i1⟩
  | 107 => ⟨S_, .i32⟩
  | 108 => ⟨S8000000, .i32⟩
  | 109 => ⟨S8000000, .i32⟩
  | 110 => ⟨S8000000, .i32⟩
  | 111 => ⟨S8000000x1, .i32⟩
  | 112 => ⟨S1000000x3, .f32⟩
  | 113 => ⟨S_, .i32⟩
  | 114 => ⟨S8000000, .i32⟩
  | 115 => ⟨S8000000, .i1⟩
  | 116 => ⟨S_, .i32⟩
  | 117 => ⟨S8000000, .i32⟩
  | 118 => ⟨S8000000, .i32⟩
  | 119 => ⟨S8000000, .i32⟩
  | 120 => ⟨S8000000x1, .i32⟩
  | 121 => ⟨S8000000x1, .f32⟩
  | 122 => ⟨S8000000x1, .f32⟩
  | 123 => ⟨S8000000x3, .f32⟩
  | 124 => ⟨S8000000x3, .f32⟩
  | 125 => ⟨S_, .i32⟩
  | 126 => ⟨S8000000, .i32⟩
  | 127 => ⟨S8000000, .i1⟩
  | _ => ⟨S1000000x3, .f32⟩

abbrev hbmTy0_1 (i : Nat) : BufTy := match i % 128 with
  | 0 => ⟨S_, .i32⟩
  | 1 => ⟨S8000000, .i32⟩
  | 2 => ⟨S8000000, .i32⟩
  | 3 => ⟨S8000000, .i32⟩
  | 4 => ⟨S8000000x1, .i32⟩
  | 5 => ⟨S1000000x3, .f32⟩
  | _ => ⟨S1000000x3, .f32⟩

abbrev hbmTy (i : Nat) : BufTy := match i / 128 with
  | 0 => hbmTy0_0 i
  | 1 => hbmTy0_1 i
  | _ => ⟨S1000000x3, .f32⟩

abbrev bufTy : (tb : Table) → Fin (tcTables nBuf tb) → BufTy
  | .hbm, ⟨i, _⟩ => hbmTy i
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_c : Ref sig .tc := ⟨.hbm, 10, rfl⟩
abbrev main_v4 : Ref sig .tc := ⟨.hbm, 11, rfl⟩
abbrev main_v5 : Ref sig .tc := ⟨.hbm, 12, rfl⟩
abbrev main_c_0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_cst : Ref sig .tc := ⟨.hbm, 30, rfl⟩
abbrev main_call0_v1 : Ref sig .tc := ⟨.hbm, 31, rfl⟩
abbrev main_call0_v2 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_3 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c_5 : Ref sig .tc := ⟨.hbm, 46, rfl⟩
abbrev main_v30 : Ref sig .tc := ⟨.hbm, 47, rfl⟩
abbrev main_v31 : Ref sig .tc := ⟨.hbm, 48, rfl⟩
abbrev main_c_6 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst : Ref sig .tc := ⟨.hbm, 56, rfl⟩
abbrev main_v38 : Ref sig .tc := ⟨.hbm, 57, rfl⟩
abbrev main_v39 : Ref sig .tc := ⟨.hbm, 58, rfl⟩
abbrev main_c_7 : Ref sig .tc := ⟨.hbm, 59, rfl⟩
abbrev main_v40 : Ref sig .tc := ⟨.hbm, 60, rfl⟩
abbrev main_v41 : Ref sig .tc := ⟨.hbm, 61, rfl⟩
abbrev main_c_8 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_11 : Ref sig .tc := ⟨.hbm, 78, rfl⟩
abbrev main_v55 : Ref sig .tc := ⟨.hbm, 79, rfl⟩
abbrev main_v56 : Ref sig .tc := ⟨.hbm, 80, rfl⟩
abbrev main_cst_12 : Ref sig .tc := ⟨.hbm, 81, rfl⟩
abbrev main_call1_v0 : Ref sig .tc := ⟨.hbm, 82, rfl⟩
abbrev main_call1_v1 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_c_13 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_c_15 : Ref sig .tc := ⟨.hbm, 104, rfl⟩
abbrev main_v75 : Ref sig .tc := ⟨.hbm, 105, rfl⟩
abbrev main_v76 : Ref sig .tc := ⟨.hbm, 106, rfl⟩
abbrev main_c_16 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_c_17 : Ref sig .tc := ⟨.hbm, 113, rfl⟩
abbrev main_v82 : Ref sig .tc := ⟨.hbm, 114, rfl⟩
abbrev main_v83 : Ref sig .tc := ⟨.hbm, 115, rfl⟩
abbrev main_c_18 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_c_19 : Ref sig .tc := ⟨.hbm, 125, rfl⟩
abbrev main_v92 : Ref sig .tc := ⟨.hbm, 126, rfl⟩
abbrev main_v93 : Ref sig .tc := ⟨.hbm, 127, rfl⟩
abbrev main_c_20 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩

abbrev nD : Nat := 1
abbrev τ : Topo := Topo.v7x

variable {F : FTy → Type} [FloatOps F]

class Facts₀ : Prop where
  slices_S8000000x2_S8000000x1_0_0 : S8000000x2.Slices ![0, 0] S8000000x1
  shapeCasts_S8000000x1_S8000000 : S8000000x1.ShapeCasts S8000000
  slices_S8000000x2_S8000000x1_0_1 : S8000000x2.Slices ![0, 1] S8000000x1
  bcast_S_S8000000 : S_.BroadcastsInDim S8000000 (![] : Fin 0 → Fin S8000000.rank)
  bcast_S8000000_S8000000x1_0 : S8000000.BroadcastsInDim S8000000x1 (![0] : Fin 1 → Fin S8000000x1.rank)
  reducesTo_S8000000x3_S8000000_d1 : S8000000x3.ReducesTo [1] S8000000
  h_S_ : 0 < S_.numel
  bcast_S8000000x1_S8000000x3_0_1 : S8000000x1.BroadcastsInDim S8000000x3 (![0, 1] : Fin 2 → Fin S8000000x3.rank)
  bcast_S_S8000000x1 : S_.BroadcastsInDim S8000000x1 (![] : Fin 0 → Fin S8000000x1.rank)
  gather_S1000000x3_S8000000x1_S8000000x3_1_0_n_n_0_1_13_wf : GatherDims.WF S1000000x3 S8000000x1 S8000000x3 [1] [0] [] [0] [] 1 ![1, 3]
  gather_S1000000x1_S8000000x1_S8000000x1_1_0_n_n_0_1_11_wf : GatherDims.WF S1000000x1 S8000000x1 S8000000x1 [1] [0] [] [0] [] 1 ![1, 1]
  scatter_S1000000x3_S8000000x1_S8000000x3_1_0_0_1_wf : ScatterDims.WF S1000000x3 S8000000x1 S8000000x3 [1] [0] [0] 1

variable [Facts₀]

def gather_S1000000x3_S8000000x1_S8000000x3_1_0_n_n_0_1_13 : GatherDims S1000000x3 S8000000x1 S8000000x3 where
  offsetDims := [1]
  collapsedSliceDims := [0]
  operandBatchingDims := []
  startIndicesBatchingDims := []
  startIndexMap := [0]
  indexVectorDim := 1
  sliceSizes := ![1, 3]
  wf := gather_S1000000x3_S8000000x1_S8000000x3_1_0_n_n_0_1_13_wf
def gather_S1000000x1_S8000000x1_S8000000x1_1_0_n_n_0_1_11 : GatherDims S1000000x1 S8000000x1 S8000000x1 where
  offsetDims := [1]
  collapsedSliceDims := [0]
  operandBatchingDims := []
  startIndicesBatchingDims := []
  startIndexMap := [0]
  indexVectorDim := 1
  sliceSizes := ![1, 1]
  wf := gather_S1000000x1_S8000000x1_S8000000x1_1_0_n_n_0_1_11_wf
def scatter_S1000000x3_S8000000x1_S8000000x3_1_0_0_1 : ScatterDims S1000000x3 S8000000x1 S8000000x3 where
  updateWindowDims := [1]
  insertedWindowDims := [0]
  scatterDimsToOperandDims := [0]
  indexVectorDim := 1
  wf := scatter_S1000000x3_S8000000x1_S8000000x3_1_0_0_1_wf

class Facts : Prop extends Facts₀ where

variable [Facts]
-- ==== Proof.AroundBits.lean ====
/-
  The program around its one pipelined region: host lines, the region, host lines.

  The host lines before the region gather, per edge, the two endpoints' positions, inverse masses and compliances,
  and lay them out as two [6, E] arrays (rows = features, columns = edges). The region walks the E = 250 · 32000
  columns in 250 blocks of 32000: at block `t` it is handed columns [32000·t, 32000·(t+1)) of both arrays, and
  writes the same columns of a [6, E] and a [1, E] result, each as ONE whole-block store of a pure function of the
  two input blocks. The host lines after the region slice and transpose the results back and scatter-add them.

  Proved here, at any float instance: every weakly fair execution terminates without a fault; each result array of
  the region ends as the blocks written back; every other buffer ends as the later host lines leave it; and the six
  argument arrays, which no host line writes, end as launched.
-/
import proofs.«162554_j12610023981116_1_alg».proof.Proof.Gen.Kernel.Launch
import proofs.«162554_j12610023981116_1_alg».proof.Proof.Gen.Kernel.Skeleton
import proofs.«162554_j12610023981116_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Around

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates. -/
theorem before_fresh : (hostOps0 : List (HloOp τ sig (Elt F))).Forall fun op => op.fresh = ∅ := by
  simp only [List.Forall]; repeat' constructor
theorem later_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The later lines touch only the region's arrays and the buffers that bypass it. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem later_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp later_fresh) op hop
/-- And each writes only its own result buffer, which is none of the region's four arrays. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- A reference none of the earlier host lines writes is found by the region as launched. -/
theorem V_of_not_written (c : Dev nD) (b : Ref sig .tc)
    (h : ∀ op ∈ (List.flatten [hostOps0] : List (HloOp τ sig (Elt F))), Proc.devRef .tc b ∉ op.writes) :
    V m c b = m ((c : Thread nD τ).loc b) :=
  StableHlo.after_of_forall_not_mem (b := Proc.devRef .tc b) _ _ h

/-- No earlier host line writes an argument array. -/
theorem before_keeps_args : ∀ b ∈ ([main_arg0, main_arg1, main_arg2, main_arg3, main_arg4, main_arg5] : List (Ref sig .tc)),
    ∀ op ∈ (List.flatten [hostOps0] : List (HloOp τ sig (Elt F))), Proc.devRef .tc b ∉ op.writes := by
  intro b hb
  refine List.forall_iff_forall_mem.mp ?_
  simp only [List.mem_cons, List.mem_nil_iff, or_false] at hb
  rcases hb with rfl | rfl | rfl | rfl | rfl | rfl
  all_goals
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)

/-- Nor does a later one. -/
theorem later_keeps_args : ∀ b ∈ ([main_arg0, main_arg1, main_arg2, main_arg3, main_arg4, main_arg5] : List (Ref sig .tc)),
    ∀ op ∈ (List.flatten [hostOps1] : List (HloOp τ sig (Elt F))), Proc.devRef .tc b ∉ op.writes := by
  intro b hb
  refine List.forall_iff_forall_mem.mp ?_
  simp only [List.mem_cons, List.mem_nil_iff, or_false] at hb
  rcases hb with rfl | rfl | rfl | rfl | rfl | rfl
  all_goals
    simp only [hostOps1, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- So an argument array, which is also none of the region's arrays, ends as launched. -/
theorem arg_kept (dats : (p : Fin _) → (c : Dev nD) → Dat τ (Elt F) Unit ℕ (UR sig nD τ) ℕ (cfgs p) c) (c : Dev nD)
    (b : Ref sig .tc) (hb : b ∈ ([main_arg0, main_arg1, main_arg2, main_arg3, main_arg4, main_arg5] : List (Ref sig .tc)))
    (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (later_keeps_args b hb),
    Pipeline.withArrays_of_ne _ c (V0 m c) _ b hne]
  exact V_of_not_written m c b (before_keeps_args b hb)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over the
    region-entry arrays whose body leaves the input blocks in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body: two whole-block loads, two whole-block stores -/

abbrev r6 : Rect S6x32000 := Rect.unit (s := S6x32000) ![0, 0] S6x32000.size inb_S6x32000_S6x32000_0_0
abbrev r1 : Rect S1x32000 := Rect.unit (s := S1x32000) ![0, 0] S1x32000.size inb_S1x32000_S1x32000_0_0

/-- What the body leaves in the [6, 32000] result block, from the two input blocks. -/
def out2 (x0 x1 : Vec F S6x32000 .f32) : Vec F S6x32000 .f32 :=
  View.canon [⟨r6, k0_pay9 (View.ld x0 r6) (View.ld x1 r6)⟩]
/-- What it leaves in the [1, 32000] result block. -/
def out3 (x0 x1 : Vec F S6x32000 .f32) : Vec F S1x32000 .f32 :=
  View.canon [⟨r1, k0_pay8 (View.ld x0 r6) (View.ld x1 r6)⟩]

/-- Each store is of the whole block, so it covers it. -/
theorem cover2 (p0 : Vec F S6x32000 .f32) (y : S6x32000.Idx) :
    ∃ pc ∈ ([⟨r6, p0⟩] : List (View.Piece (Elt F) S6x32000 .f32)), y ∈ pc.1.set :=
  View.cover_of_tiled [⟨r6, p0⟩] S6x32000.size (by rfl) y
theorem cover3 (p0 : Vec F S1x32000 .f32) (y : S1x32000.Idx) :
    ∃ pc ∈ ([⟨r1, p0⟩] : List (View.Piece (Elt F) S1x32000 .f32)), y ∈ pc.1.set :=
  View.cover_of_tiled [⟨r1, p0⟩] S1x32000.size (by rfl) y

set_option maxHeartbeats 1000000 in
/-- The body on whole staging buffers — the inputs' holding `x0`, `x1`, the results' holding anything — runs to its end
    with the inputs as they were and the results at `out2 x0 x1`, `out3 x0 x1`. -/
theorem sound_kernel (c : Dev nD) (E : Set ℕ) (i : grid0.Coords)
    (arg1 : Memref sig .tc .vmem S6x32000 .f32) (harg1 : arg1.IsWhole) (arg2 : Memref sig .tc .vmem S6x32000 .f32) (harg2 : arg2.IsWhole)
    (arg3 : Memref sig .tc .vmem S6x32000 .f32) (harg3 : arg3.IsWhole) (arg4 : Memref sig .tc .vmem S1x32000 .f32) (harg4 : arg4.IsWhole)
    (x0 x1 : Vec F S6x32000 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x0 x1)) -∗ K ⟨⟩))
      ⊢ wp frame (wpE (defs₀ (F := F)) Variants.none c none) E (cc0__edge_update_kernel i arg1 harg1 arg2 harg2 arg3 harg3 arg4 harg4) K := by
  simp only [cc0__edge_update_kernel_eq_skeleton]; unfold cc0__edge_update_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover3 _)

/-! ## The pipeline's proof data -/

/-- On core `c`: the arrays as the region finds them; after the body at point `t` each input's buffer at its block and
    each result's at the body's function of the two input blocks; nothing of the core's own kept; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]
theorem after3 (c : Dev nD) (t : Fin cfg0.N) : (dats m 0 c).after 3 t = out3 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; each of the region's arrays ends as the blocks written back, every
    other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := later_sub) (hfresh := later_fresh') (hkeep := later_keeps)
    (hmain := hmain m Variants.none) (hA := A_eq m) (hΦ := fun _ _ => rfl)

/-- The six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (arg_kept m (dats m) c main_arg0 (by simp) (by decide)),
     ((h c).2 main_arg1 (Pipeline.mem_restRefs_of main_arg1 (by decide) (by decide))).trans (arg_kept m (dats m) c main_arg1 (by simp) (by decide)),
     ((h c).2 main_arg2 (Pipeline.mem_restRefs_of main_arg2 (by decide) (by decide))).trans (arg_kept m (dats m) c main_arg2 (by simp) (by decide)),
     ((h c).2 main_arg3 (Pipeline.mem_restRefs_of main_arg3 (by decide) (by decide))).trans (arg_kept m (dats m) c main_arg3 (by simp) (by decide)),
     ((h c).2 main_arg4 (Pipeline.mem_restRefs_of main_arg4 (by decide) (by decide))).trans (arg_kept m (dats m) c main_arg4 (by simp) (by decide)),
     ((h c).2 main_arg5 (Pipeline.mem_restRefs_of main_arg5 (by decide) (by decide))).trans (arg_kept m (dats m) c main_arg5 (by simp) (by decide))⟩)
    (run_main m ρ)

end Cert.Kernel.Around

end
-- ==== Proof.AroundIdeal.lean ====
/-
  The program around its one pipelined region: host lines, the region, host lines.

  The host lines before the region gather, per edge, the two endpoints' positions, inverse masses and compliances,
  and lay them out as two [6, E] arrays (rows = features, columns = edges). The region walks the E = 250 · 32000
  columns in 250 blocks of 32000: at block `t` it is handed columns [32000·t, 32000·(t+1)) of both arrays, and
  writes the same columns of a [6, E] and a [1, E] result, each as ONE whole-block store of a pure function of the
  two input blocks. The host lines after the region slice and transpose the results back and scatter-add them.

  Proved here, at any float instance: every weakly fair execution terminates without a fault; each result array of
  the region ends as the blocks written back; every other buffer ends as the later host lines leave it; and the six
  argument arrays, which no host line writes, end as launched.
-/
import proofs.«162554_j12610023981116_1_alg».proof.Proof.Gen.KernelIdeal.Launch
import proofs.«162554_j12610023981116_1_alg».proof.Proof.Gen.KernelIdeal.Skeleton
import proofs.«162554_j12610023981116_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Around

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers when the region is entered -/

/-- Core `c`'s buffer contents when the region is entered: the launch memory after the host lines before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

/-- No host line allocates. -/
theorem before_fresh : (hostOps0 : List (HloOp τ sig (Elt F))).Forall fun op => op.fresh = ∅ := by
  simp only [List.Forall]; repeat' constructor
theorem later_fresh : (hostOps1 : List (HloOp τ sig (Elt F))).Forall fun op => op.fresh = ∅ := by
  simp only [List.Forall]; repeat' constructor

/-- @main is the host lines before the region, the region, and the host lines after it. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1]) :=
  Pipeline.hmain_around cfgs 0 defs₀ 𝒱₀ m main [hostOps0] [hostOps1] (by simp only [List.Forall]; exact hostOps0_sub)
    (by simp only [List.Forall]; exact before_fresh) main_chain

/-- The later lines touch only the region's arrays and the buffers that bypass it. -/
theorem later_sub : ∀ ops ∈ ([hostOps1] : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl
  exact Pipeline.sub_ucRefs op ((List.forall_iff_forall_mem.mp hostOps1_sub) op hop)
/-- They allocate nothing. -/
theorem later_fresh' : ∀ ops ∈ ([hostOps1] : List (List (HloOp τ sig (Elt F)))), ∀ op ∈ ops, op.fresh = ∅ := by
  intro ops hops op hop
  simp only [List.mem_cons, List.mem_nil_iff, or_false] at hops
  rcases hops with rfl
  exact (List.forall_iff_forall_mem.mp later_fresh) op hop
/-- And each writes only its own result buffer, which is none of the region's four arrays. -/
theorem later_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals intro w; fin_cases w <;> simp only [StableHlo.nullary_writes, StableHlo.unary_writes, StableHlo.binary_writes, StableHlo.ternary_writes, StableHlo.reshape_writes, Finset.mem_singleton] <;> exact StableHlo.devRef_ne_of_ne (by decide)

/-- A reference none of the earlier host lines writes is found by the region as launched. -/
theorem V_of_not_written (c : Dev nD) (b : Ref sig .tc)
    (h : ∀ op ∈ (List.flatten [hostOps0] : List (HloOp τ sig (Elt F))), Proc.devRef .tc b ∉ op.writes) :
    V m c b = m ((c : Thread nD τ).loc b) :=
  StableHlo.after_of_forall_not_mem (b := Proc.devRef .tc b) _ _ h

/-- No earlier host line writes an argument array. -/
theorem before_keeps_args : ∀ b ∈ ([main_arg0, main_arg1, main_arg2, main_arg3, main_arg4, main_arg5] : List (Ref sig .tc)),
    ∀ op ∈ (List.flatten [hostOps0] : List (HloOp τ sig (Elt F))), Proc.devRef .tc b ∉ op.writes := by
  intro b hb
  refine List.forall_iff_forall_mem.mp ?_
  simp only [List.mem_cons, List.mem_nil_iff, or_false] at hb
  rcases hb with rfl | rfl | rfl | rfl | rfl | rfl
  all_goals
    simp only [hostOps0, List.flatten_cons, List.flatten_nil, List.append_nil, List.cons_append,
      List.nil_append, List.Forall, StableHlo.nullary_writes, StableHlo.unary_writes, StableHlo.binary_writes, StableHlo.ternary_writes, StableHlo.nary_writes, StableHlo.reshape_writes, Finset.mem_singleton]
    repeat' apply And.intro
    all_goals exact StableHlo.devRef_ne_of_ne (by decide)

/-- Nor does a later one. -/
theorem later_keeps_args : ∀ b ∈ ([main_arg0, main_arg1, main_arg2, main_arg3, main_arg4, main_arg5] : List (Ref sig .tc)),
    ∀ op ∈ (List.flatten [hostOps1] : List (HloOp τ sig (Elt F))), Proc.devRef .tc b ∉ op.writes := by
  intro b hb
  refine List.forall_iff_forall_mem.mp ?_
  simp only [List.mem_cons, List.mem_nil_iff, or_false] at hb
  rcases hb with rfl | rfl | rfl | rfl | rfl | rfl
  all_goals
    simp only [hostOps1, List.flatten_cons, List.flatten_nil, List.append_nil, List.cons_append,
      List.nil_append, List.Forall, StableHlo.nullary_writes, StableHlo.unary_writes, StableHlo.binary_writes, StableHlo.ternary_writes, StableHlo.reshape_writes, Finset.mem_singleton]
    repeat' apply And.intro
    all_goals exact StableHlo.devRef_ne_of_ne (by decide)

/-- So an argument array, which is also none of the region's arrays, ends as launched. -/
theorem arg_kept (dats : (p : Fin _) → (c : Dev nD) → Dat τ (Elt F) Unit ℕ (UR sig nD τ) ℕ (cfgs p) c) (c : Dev nD)
    (b : Ref sig .tc) (hb : b ∈ ([main_arg0, main_arg1, main_arg2, main_arg3, main_arg4, main_arg5] : List (Ref sig .tc)))
    (hne : ∀ w, Pipeline.arrRef spec0 w ≠ b) :
    Pipeline.afterTail₀ cfgs dats 0 (V0 m) [hostOps1] c b = m ((c : Thread nD τ).loc b) := by
  unfold Pipeline.afterTail₀
  rw [StableHlo.after_of_forall_not_mem (b := Proc.devRef .tc b) _ _ (later_keeps_args b hb),
    Pipeline.withArrays_of_ne _ c (V0 m c) _ b hne]
  exact V_of_not_written m c b (before_keeps_args b hb)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- An input window's current staging buffer holds its block at every point, for any proof data over the
    region-entry arrays whose body leaves the input blocks in place. -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body: two whole-block loads, two whole-block stores -/

abbrev r6 : Rect S6x32000 := Rect.unit (s := S6x32000) ![0, 0] S6x32000.size inb_S6x32000_S6x32000_0_0
abbrev r1 : Rect S1x32000 := Rect.unit (s := S1x32000) ![0, 0] S1x32000.size inb_S1x32000_S1x32000_0_0

/-- What the body leaves in the [6, 32000] result block, from the two input blocks. -/
def out2 (x0 x1 : Vec F S6x32000 .f32) : Vec F S6x32000 .f32 :=
  View.canon [⟨r6, k0_pay9 (View.ld x0 r6) (View.ld x1 r6)⟩]
/-- What it leaves in the [1, 32000] result block. -/
def out3 (x0 x1 : Vec F S6x32000 .f32) : Vec F S1x32000 .f32 :=
  View.canon [⟨r1, k0_pay8 (View.ld x0 r6) (View.ld x1 r6)⟩]

/-- Each store is of the whole block, so it covers it. -/
theorem cover2 (p0 : Vec F S6x32000 .f32) (y : S6x32000.Idx) :
    ∃ pc ∈ ([⟨r6, p0⟩] : List (View.Piece (Elt F) S6x32000 .f32)), y ∈ pc.1.set :=
  View.cover_of_tiled [⟨r6, p0⟩] S6x32000.size (by rfl) y
theorem cover3 (p0 : Vec F S1x32000 .f32) (y : S1x32000.Idx) :
    ∃ pc ∈ ([⟨r1, p0⟩] : List (View.Piece (Elt F) S1x32000 .f32)), y ∈ pc.1.set :=
  View.cover_of_tiled [⟨r1, p0⟩] S1x32000.size (by rfl) y

set_option maxHeartbeats 1000000 in
/-- The body on whole staging buffers — the inputs' holding `x0`, `x1`, the results' holding anything — runs to its end
    with the inputs as they were and the results at `out2 x0 x1`, `out3 x0 x1`. -/
theorem sound_kernel (c : Dev nD) (E : Set ℕ) (i : grid0.Coords)
    (arg1 : Memref sig .tc .vmem S6x32000 .f32) (harg1 : arg1.IsWhole) (arg2 : Memref sig .tc .vmem S6x32000 .f32) (harg2 : arg2.IsWhole)
    (arg3 : Memref sig .tc .vmem S6x32000 .f32) (harg3 : arg3.IsWhole) (arg4 : Memref sig .tc .vmem S1x32000 .f32) (harg4 : arg4.IsWhole)
    (x0 x1 : Vec F S6x32000 .f32) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d)
        ∗ (iprop(owns (c : Thread nD τ) arg1 fullShare x0 ∗ owns (c : Thread nD τ) arg2 fullShare x1
            ∗ owns (c : Thread nD τ) arg3 fullShare (out2 x0 x1) ∗ owns (c : Thread nD τ) arg4 fullShare (out3 x0 x1)) -∗ K ⟨⟩))
      ⊢ wp frame (wpE (defs₀ (F := F)) Variants.none c none) E (cc0__edge_update_kernel i arg1 harg1 arg2 harg2 arg3 harg3 arg4 harg4) K := by
  simp only [cc0__edge_update_kernel_eq_skeleton]; unfold cc0__edge_update_kernel_skel
  simp only [k0_part1_eq_skeleton]
  unfold owns
  iintro ⟨⟨%f0, %hf0, H0⟩, ⟨%f1, %hf1, H1⟩, ⟨%d2, %f2, -, H2⟩, ⟨%d3, %f3, -, H3⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover2 _)
  iexists _; isplitr
  swap; · iexact H3
  ipureintro
  exact View.read_writes_eq_canon _ _ _ (cover3 _)

/-! ## The pipeline's proof data -/

/-- On core `c`: the arrays as the region finds them; after the body at point `t` each input's buffer at its block and
    each result's at the body's function of the two input blocks; nothing of the core's own kept; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => out2 (iblk m c 0 t) (iblk m c 1 t)
    | ⟨3, _⟩ => out3 (iblk m c 0 t) (iblk m c 1 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = out2 (iblk m c 0 t) (iblk m c 1 t) := by dsimp only [dats]
theorem after3 (c : Dev nD) (t : Fin cfg0.N) : (dats m 0 c).after 3 t = out3 (iblk m c 0 t) (iblk m c 1 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1]
  rw [show (dats m 0 c).Φ t.succ = (dats m 0 c).Φ t.castSucc from rfl,
    show (dats m 0 c).owesAt () t.succ = (dats m 0 c).owesAt () t.castSucc from rfl,
    after0, after1, after2, after3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates; each of the region's arrays ends as the blocks written back, every
    other unscoped buffer as the later host lines leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := later_sub) (hfresh := later_fresh') (hkeep := later_keeps)
    (hmain := hmain m Variants.none) (hA := A_eq m) (hΦ := fun _ _ => rfl)

/-- The six argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_arg0 (Pipeline.mem_restRefs_of main_arg0 (by decide) (by decide))).trans (arg_kept m (dats m) c main_arg0 (by simp) (by decide)),
     ((h c).2 main_arg1 (Pipeline.mem_restRefs_of main_arg1 (by decide) (by decide))).trans (arg_kept m (dats m) c main_arg1 (by simp) (by decide)),
     ((h c).2 main_arg2 (Pipeline.mem_restRefs_of main_arg2 (by decide) (by decide))).trans (arg_kept m (dats m) c main_arg2 (by simp) (by decide)),
     ((h c).2 main_arg3 (Pipeline.mem_restRefs_of main_arg3 (by decide) (by decide))).trans (arg_kept m (dats m) c main_arg3 (by simp) (by decide)),
     ((h c).2 main_arg4 (Pipeline.mem_restRefs_of main_arg4 (by decide) (by decide))).trans (arg_kept m (dats m) c main_arg4 (by simp) (by decide)),
     ((h c).2 main_arg5 (Pipeline.mem_restRefs_of main_arg5 (by decide) (by decide))).trans (arg_kept m (dats m) c main_arg5 (by simp) (by decide))⟩)
    (run_main m ρ)

end Cert.KernelIdeal.Around

end
-- ==== Proof.Blocks.lean ====
/-
  Where the region's blocks sit in its arrays.

  All four windows move the same way: at point `t` (of 250) the block is every row and columns
  [32000·t, 32000·(t+1)) of the window's array. So entry (r, e) of block `t` is entry (r, 32000·t + e) of the
  array; an array index (r, E) lies in block `t` exactly when 32000·t ≤ E < 32000·(t+1); and the 250 blocks cover
  every column, column E falling in block E / 32000.
-/
import proofs.«162554_j12610023981116_1_alg».proof.Proof.AroundIdeal
import Idealize.ShloMosaic.Lib.ValueIdx
import Idealize.ShloMosaic.Lib.Pipeline.Value

set_option maxRecDepth 16384

noncomputable section

namespace Cert.KernelIdeal.Blocks

open Cert.KernelIdeal Cert.KernelIdeal.Gen Cert.KernelIdeal.Around
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ)

/-- The printed index maps over the grid: block row 0, block column the point's number. -/
theorem idx_facts : ∀ t : Fin cfg0.N,
    win0_0.index t (0 : Fin 2) = 0 ∧ win0_0.index t (1 : Fin 2) = t.val
    ∧ win0_1.index t (0 : Fin 2) = 0 ∧ win0_1.index t (1 : Fin 2) = t.val
    ∧ win0_2.index t (0 : Fin 2) = 0 ∧ win0_2.index t (1 : Fin 2) = t.val
    ∧ win0_3.index t (0 : Fin 2) = 0 ∧ win0_3.index t (1 : Fin 2) = t.val :=
  (by decide +kernel : ∀ t : Fin grid0.N, _)

theorem t_lt (t : Fin cfg0.N) : t.val < 250 := lt_of_lt_of_eq t.isLt N_0

/-- Column `e` of block `t` is column 32000·t + e of the array. -/
def colOf (t : Fin cfg0.N) (e : Fin 32000) : Fin 8000000 :=
  ⟨t.val * 32000 + e.val, by have := t_lt t; have := e.isLt; omega⟩

/-- Entry (r, e) of block `t` of each window is entry (r, colOf t e) of its array. -/
theorem emb0 (t : Fin cfg0.N) (r : Fin 6) (e : Fin 32000) : ((cfg0.win 0).blk t).view.emb (ix2 r e) = ix2 r (colOf t e) := by
  obtain ⟨a0, a1, -⟩ := idx_facts t
  funext a; apply Fin.ext
  match a with
  | ⟨0, _⟩ => show win0_0.index t (0 : Fin 2) * 6 + 1 * r.val = r.val; omega
  | ⟨1, _⟩ => show win0_0.index t (1 : Fin 2) * 32000 + 1 * e.val = t.val * 32000 + e.val; omega
theorem emb1 (t : Fin cfg0.N) (r : Fin 6) (e : Fin 32000) : ((cfg0.win 1).blk t).view.emb (ix2 r e) = ix2 r (colOf t e) := by
  obtain ⟨-, -, a0, a1, -⟩ := idx_facts t
  funext a; apply Fin.ext
  match a with
  | ⟨0, _⟩ => show win0_1.index t (0 : Fin 2) * 6 + 1 * r.val = r.val; omega
  | ⟨1, _⟩ => show win0_1.index t (1 : Fin 2) * 32000 + 1 * e.val = t.val * 32000 + e.val; omega
theorem emb2 (t : Fin cfg0.N) (r : Fin 6) (e : Fin 32000) : ((cfg0.win 2).blk t).view.emb (ix2 r e) = ix2 r (colOf t e) := by
  obtain ⟨-, -, -, -, a0, a1, -⟩ := idx_facts t
  funext a; apply Fin.ext
  match a with
  | ⟨0, _⟩ => show win0_2.index t (0 : Fin 2) * 6 + 1 * r.val = r.val; omega
  | ⟨1, _⟩ => show win0_2.index t (1 : Fin 2) * 32000 + 1 * e.val = t.val * 32000 + e.val; omega
theorem emb3 (t : Fin cfg0.N) (r : Fin 1) (e : Fin 32000) : ((cfg0.win 3).blk t).view.emb (ix2 r e) = ix2 r (colOf t e) := by
  obtain ⟨-, -, -, -, -, -, a0, a1⟩ := idx_facts t
  funext a; apply Fin.ext
  match a with
  | ⟨0, _⟩ => show win0_3.index t (0 : Fin 2) * 1 + 1 * r.val = r.val; omega
  | ⟨1, _⟩ => show win0_3.index t (1 : Fin 2) * 32000 + 1 * e.val = t.val * 32000 + e.val; omega

/-- The two input blocks at point `t`, entry by entry, are the operand arrays at the block's columns. -/
theorem iblk0_at (c : Dev nD) (t : Fin cfg0.N) (r : Fin 6) (e : Fin 32000) :
    iblk m c 0 t (ix2 r e) = V m c main_v48 (ix2 r (colOf t e)) := by
  show V m c main_v48 (((cfg0.win 0).blk t).view.emb (ix2 r e)) = _
  rw [emb0]
theorem iblk1_at (c : Dev nD) (t : Fin cfg0.N) (r : Fin 6) (e : Fin 32000) :
    iblk m c 1 t (ix2 r e) = V m c main_v55 (ix2 r (colOf t e)) := by
  show V m c main_v55 (((cfg0.win 1).blk t).view.emb (ix2 r e)) = _
  rw [emb1]

/-- An index of a result array is in point `t`'s block iff its column is in the block's range. -/
theorem mem_blk2 (t : Fin cfg0.N) (i : S6x8000000.Idx) :
    i ∈ ((cfg0.win 2).blk t).view.set ↔ ∀ a : Fin 2, win0_2.index t a * S6x32000.size a ≤ (i a).val ∧ (i a).val < win0_2.index t a * S6x32000.size a + S6x32000.size a := by
  show i ∈ ((View.whole main_v56_0).slice (win0_2.rect t)).set ↔ _
  rw [View.set_slice_whole, Rect.mem_set_unit]
  exact Iff.rfl
theorem mem_blk3 (t : Fin cfg0.N) (i : S1x8000000.Idx) :
    i ∈ ((cfg0.win 3).blk t).view.set ↔ ∀ a : Fin 2, win0_3.index t a * S1x32000.size a ≤ (i a).val ∧ (i a).val < win0_3.index t a * S1x32000.size a + S1x32000.size a := by
  show i ∈ ((View.whole main_v56_1).slice (win0_3.rect t)).set ↔ _
  rw [View.set_slice_whole, Rect.mem_set_unit]
  exact Iff.rfl

/-- The point whose block holds column `E`. -/
def pointOf (E : Nat) (h : E < 8000000) : Fin cfg0.N := ⟨E / 32000, by rw [show cfg0.N = 250 from N_0]; omega⟩

/-- Every index of each result array lies in the block of some point that writes back. -/
theorem covered2 (i : S6x8000000.Idx) : ∃ t : Fin cfg0.N, (cfg0.win 2).flush t = true ∧ i ∈ ((cfg0.win 2).blk t).view.set := by
  have hi0 : (i 0).val < 6 := (i 0).isLt
  have hi1 : (i 1).val < 8000000 := (i 1).isLt
  refine ⟨pointOf (i 1).val hi1, flush0_2 _, ?_⟩
  rw [mem_blk2]
  obtain ⟨-, -, -, -, a0, a1, -⟩ := idx_facts (pointOf (i 1).val hi1)
  have hp : (pointOf (i 1).val hi1).val = (i 1).val / 32000 := rfl
  intro a
  match a with
  | ⟨0, _⟩ => show win0_2.index _ (0 : Fin 2) * 6 ≤ (i 0).val ∧ (i 0).val < win0_2.index _ (0 : Fin 2) * 6 + 6; omega
  | ⟨1, _⟩ => show win0_2.index _ (1 : Fin 2) * 32000 ≤ (i 1).val ∧ (i 1).val < win0_2.index _ (1 : Fin 2) * 32000 + 32000; omega
theorem covered3 (i : S1x8000000.Idx) : ∃ t : Fin cfg0.N, (cfg0.win 3).flush t = true ∧ i ∈ ((cfg0.win 3).blk t).view.set := by
  have hi0 : (i 0).val < 1 := (i 0).isLt
  have hi1 : (i 1).val < 8000000 := (i 1).isLt
  refine ⟨pointOf (i 1).val hi1, flush0_3 _, ?_⟩
  rw [mem_blk3]
  obtain ⟨-, -, -, -, -, -, a0, a1⟩ := idx_facts (pointOf (i 1).val hi1)
  have hp : (pointOf (i 1).val hi1).val = (i 1).val / 32000 := rfl
  intro a
  match a with
  | ⟨0, _⟩ => show win0_3.index _ (0 : Fin 2) * 1 ≤ (i 0).val ∧ (i 0).val < win0_3.index _ (0 : Fin 2) * 1 + 1; omega
  | ⟨1, _⟩ => show win0_3.index _ (1 : Fin 2) * 32000 ≤ (i 1).val ∧ (i 1).val < win0_3.index _ (1 : Fin 2) * 32000 + 32000; omega

end Cert.KernelIdeal.Blocks

end
-- ==== Proof.EdgeSpec.lean ====
/-
  One edge of the constraint projection, on the extended reals.

  An edge joins two nodes. From the two endpoint positions `pi pj : Fin 3 → EReal`, the endpoints' inverse masses
  `wi wj`, their compliances `ci cj`, the edge's multiplier `l` and its rest length `d0`:
    the edge vector          n k   = pi k - pj k
    its length               dist  = √(∑ k, n k · n k)
    the violation            dist - d0
    the mean compliance      a     = (ci + cj) · ½
    the mass sum             s     = wi + wj, replaced by +∞ when it is 0 (a pinned pair gets a zero update)
    the multiplier's update  δ     = (-(dist - d0) - a · l) / (s + a)
    the new multiplier       l + δ
    the correction           corr k = δ · (n k / dist)
    the two node updates     wi · corr k   and   (-wj) · corr k.
  Division and the square root are the instance's (`Ideal.div`, `Ideal.sqrt`), carried as they are: nothing below
  depends on their values at the corners. The three literals are kept as the words the programs print.

  The array forms read these per edge off eight edge-indexed arrays: two [E,3] arrays of endpoint positions and six
  [E,1] columns.
-/
import Idealize.ShloMosaic.PureOps.Ideal
import Idealize.ShloMosaic.PureOps.Ideal.Laws
import Idealize.ShloMosaic.Lib.ValueIdx

noncomputable section

namespace Cert.EdgeSpec

open Idealize.ShloMosaic Idealize.ShloMosaic.ValueIdx

/-- ½, +∞ and 0 as the printed words denote them. -/
abbrev half : EReal := Ideal.ofBits .f32 0x3F000000#32
abbrev pinf : EReal := Ideal.ofBits .f32 0x7F800000#32
abbrev zero : EReal := Ideal.ofBits .f32 0x00000000#32

/-- The squared length of the edge vector: the sum over the three components of the squared difference. -/
def sumsq (pi pj : Fin 3 → EReal) : EReal := ∑ k : Fin 3, (pi k - pj k) * (pi k - pj k)

/-- The edge's length. -/
def dist (pi pj : Fin 3 → EReal) : EReal := Ideal.sqrt (sumsq pi pj)

/-- The mean of the endpoints' compliances. -/
def compl (ci cj : EReal) : EReal := (ci + cj) * half

/-- The endpoints' inverse masses added, with +∞ in place of a zero sum. -/
def wsum (wi wj : EReal) : EReal := Scalar.select (Ideal.cmp .oeq (wi + wj) zero) pinf (wi + wj)

/-- The multiplier's update δ. -/
def ldelta (pi pj : Fin 3 → EReal) (wi wj ci cj l d0 : EReal) : EReal :=
  Ideal.div (-(dist pi pj - d0) - compl ci cj * l) (wsum wi wj + compl ci cj)

/-- The new multiplier l + δ. -/
def lnew (pi pj : Fin 3 → EReal) (wi wj ci cj l d0 : EReal) : EReal := l + ldelta pi pj wi wj ci cj l d0

/-- The correction along component `k`: δ times the unit edge direction. -/
def corr (pi pj : Fin 3 → EReal) (wi wj ci cj l d0 : EReal) (k : Fin 3) : EReal :=
  ldelta pi pj wi wj ci cj l d0 * Ideal.div (pi k - pj k) (dist pi pj)

/-- What the first endpoint receives along component `k`. -/
def updI (pi pj : Fin 3 → EReal) (wi wj ci cj l d0 : EReal) (k : Fin 3) : EReal := wi * corr pi pj wi wj ci cj l d0 k

/-- What the second endpoint receives along component `k`. -/
def updJ (pi pj : Fin 3 → EReal) (wi wj ci cj l d0 : EReal) (k : Fin 3) : EReal := -wj * corr pi pj wi wj ci cj l d0 k

/-- Rows 0–2 and rows 3–5 of a six-row array: the first and the second endpoint's components. -/
def lo (k : Fin 3) : Fin 6 := ⟨k.val, by omega⟩
def hi (k : Fin 3) : Fin 6 := ⟨k.val + 3, by omega⟩

/-! ## The array forms -/

abbrev SE3 : Shape := ⟨2, ![8000000, 3]⟩
abbrev SE1 : Shape := ⟨2, ![8000000, 1]⟩

variable (Pi Pj : SE3.Idx → EReal) (Wi Wj Ci Cj L D0 : SE1.Idx → EReal)

/-- Edge `e`'s row of an [E,3] array. -/
def row (P : SE3.Idx → EReal) (e : Fin 8000000) : Fin 3 → EReal := fun k => P (ix2 e k)

/-- Edge `e`'s entry of an [E,1] column. -/
def at1 (X : SE1.Idx → EReal) (e : Fin 8000000) : EReal := X (ix2 e (0 : Fin 1))

/-- The new multipliers, an [E,1] column. -/
def newL : SE1.Idx → EReal := fun j =>
  (fun e : Fin 8000000 => lnew (row Pi e) (row Pj e) (at1 Wi e) (at1 Wj e) (at1 Ci e) (at1 Cj e) (at1 L e) (at1 D0 e)) (j 0)

/-- The first endpoints' updates, an [E,3] array. -/
def updIArr : SE3.Idx → EReal := fun j =>
  (fun (e : Fin 8000000) (k : Fin 3) => updI (row Pi e) (row Pj e) (at1 Wi e) (at1 Wj e) (at1 Ci e) (at1 Cj e) (at1 L e) (at1 D0 e) k) (j 0) (j 1)

/-- The second endpoints' updates, an [E,3] array. -/
def updJArr : SE3.Idx → EReal := fun j =>
  (fun (e : Fin 8000000) (k : Fin 3) => updJ (row Pi e) (row Pj e) (at1 Wi e) (at1 Wj e) (at1 Ci e) (at1 Cj e) (at1 L e) (at1 D0 e) k) (j 0) (j 1)

theorem newL_ix2 (e : Fin 8000000) : newL Pi Pj Wi Wj Ci Cj L D0 (ix2 e (0 : Fin 1))
    = lnew (row Pi e) (row Pj e) (at1 Wi e) (at1 Wj e) (at1 Ci e) (at1 Cj e) (at1 L e) (at1 D0 e) := rfl

theorem updIArr_ix2 (e : Fin 8000000) (k : Fin 3) : updIArr Pi Pj Wi Wj Ci Cj L D0 (ix2 e k)
    = updI (row Pi e) (row Pj e) (at1 Wi e) (at1 Wj e) (at1 Ci e) (at1 Cj e) (at1 L e) (at1 D0 e) k := rfl

theorem updJArr_ix2 (e : Fin 8000000) (k : Fin 3) : updJArr Pi Pj Wi Wj Ci Cj L D0 (ix2 e k)
    = updJ (row Pi e) (row Pj e) (at1 Wi e) (at1 Wj e) (at1 Ci e) (at1 Cj e) (at1 L e) (at1 D0 e) k := rfl

end Cert.EdgeSpec

end
-- ==== Proof.PayloadAt.lean ====
import proofs.«162554_j12610023981116_1_alg».proof.Proof.Gen.KernelIdeal.Skeleton
import proofs.«162554_j12610023981116_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.PayloadAt

open Cert.KernelIdeal Cert.KernelIdeal.Gen Idealize.ShloMosaic Idealize.ShloMosaic.ValueIdx Cert.EdgeSpec

/-- The first endpoint's three position components of edge `e`: rows 0–2 of the position block. -/
def pI (x0 : Vec Ideal S6x32000 .f32) (e : Fin 32000) : Fin 3 → EReal := fun k => x0 (ix2 (lo k) e)
/-- The second endpoint's three position components of edge `e`: rows 3–5 of the position block. -/
def pJ (x0 : Vec Ideal S6x32000 .f32) (e : Fin 32000) : Fin 3 → EReal := fun k => x0 (ix2 (hi k) e)

/-- A cast of the block to its own shape changes nothing. -/
theorem pay1_eq (x1 : Vec Ideal S6x32000 .f32) : k0_pay1 (F := Ideal) x1 = x1 := by
  unfold k0_pay1
  exact shapeCast_self _ _

/-- One row `r` cut out of a six-row block, read at edge `e`, is the block at `(r, e)`. -/
theorem rowSlice_at (X : FVec Ideal S6x32000 .f32) (o : Nat) (h : S6x32000.Slices ![o, 0] S1x32000)
    (r : Fin 6) (hr : r.val = o) (e : Fin 32000) :
    extractStridedSlice S1x32000 ![o, 0] X h (ix2 (0 : Fin 1) e) = X (ix2 r e) :=
  slice2_axis0_apply o X h (0 : Fin 1) e r (by rw [hr]; rfl)

/-- The first endpoint's inverse mass at edge `e`. -/
theorem pay2_at (x1 : Vec Ideal S6x32000 .f32) (e : Fin 32000) :
    k0_pay2 (F := Ideal) x1 (ix2 (0 : Fin 1) e) = x1 (ix2 (0 : Fin 6) e) := by
  unfold k0_pay2
  refine (rowSlice_at _ 0 _ (0 : Fin 6) rfl e).trans ?_
  rw [pay1_eq]

/-- The second endpoint's inverse mass at edge `e`. -/
theorem pay3_at (x1 : Vec Ideal S6x32000 .f32) (e : Fin 32000) :
    k0_pay3 (F := Ideal) x1 (ix2 (0 : Fin 1) e) = x1 (ix2 (1 : Fin 6) e) := by
  unfold k0_pay3
  refine (rowSlice_at _ 1 _ (1 : Fin 6) rfl e).trans ?_
  rw [pay1_eq]

/-- The multiplier at edge `e`. -/
theorem pay4_at (x1 : Vec Ideal S6x32000 .f32) (e : Fin 32000) :
    k0_pay4 (F := Ideal) x1 (ix2 (0 : Fin 1) e) = x1 (ix2 (4 : Fin 6) e) := by
  unfold k0_pay4
  refine (rowSlice_at _ 4 _ (4 : Fin 6) rfl e).trans ?_
  rw [pay1_eq]

/-- The edge vector's component `k` at edge `e`: the first endpoint's less the second's. -/
theorem pay5_at (x0 : Vec Ideal S6x32000 .f32) (k : Fin 3) (e : Fin 32000) :
    k0_pay5 (F := Ideal) x0 (ix2 k e) = pI x0 e k - pJ x0 e k := by
  unfold k0_pay5
  show extractStridedSlice S3x32000 ![0, 0] (shapeCast S6x32000 x0 shapeCasts_S6x32000_S6x32000) slices_S6x32000_o0_0_S3x32000 (ix2 k e)
      - extractStridedSlice S3x32000 ![3, 0] (shapeCast S6x32000 x0 shapeCasts_S6x32000_S6x32000) slices_S6x32000_o3_0_S3x32000 (ix2 k e) = _
  rw [shapeCast_self]
  rw [slice2_axis0_apply 0 x0 slices_S6x32000_o0_0_S3x32000 k e (lo k) (Nat.zero_add _).symm,
    slice2_axis0_apply 3 x0 slices_S6x32000_o3_0_S3x32000 k e (hi k) (Nat.add_comm _ _)]
  rfl

/-- Negation as the body writes it: the zero word's value less `x`. -/
theorem zeroWord_sub (x : EReal) : Ideal.ofBits .f32 0x00000000#32 - x = -x := by
  rw [Ideal.ofBits_zero_f32, zero_sub]

/-- A square root of an array read at an index is the root of the entry. -/
theorem sqrt_at {s : Shape} (v : FVec Ideal s .f32) (i : s.Idx) : sqrt v i = Ideal.sqrt (v i) := rfl

/-- A sum over the three rows of a `[3, 32000]` array from the zero accumulator, read at edge `e`, is the sum of the
    three entries of column `e`. -/
theorem laneSum_at (src : FVec Ideal S3x32000 .f32) (h : S3x32000.Reduces [0] S32000) (hφ : FKind.Formats .f32)
    (hacc : (0x00000000#32 : BitVec 32) = FKind.add.neutral .f32 hφ) (e : Fin 32000) :
    multiReduction (F := Ideal) .add [0] S32000 src 0x00000000#32 h hφ hacc (ix1 e) = ∑ k : Fin 3, src (ix2 k e) := by
  refine (Ideal.multiReduction_add_single src 0x00000000#32 h hφ hacc (ix1 e)).trans ?_
  refine Finset.sum_congr rfl fun k _ => congrArg src ?_
  funext a
  match a with
  | ⟨0, _⟩ => rfl
  | ⟨1, _⟩ => rfl

/-- The edge's length at edge `e`: the root of the summed squares of the edge vector's components. -/
theorem pay6_at (x0 : Vec Ideal S6x32000 .f32) (e : Fin 32000) :
    k0_pay6 (F := Ideal) x0 (ix2 (0 : Fin 1) e) = dist (pI x0 e) (pJ x0 e) := by
  unfold k0_pay6
  refine (sqrt_at _ _).trans ?_
  refine congrArg Ideal.sqrt ?_
  refine (shapeCast_a_1a_apply _ _ (0 : Fin 1) e).trans ?_
  refine (laneSum_at _ _ _ _ e).trans ?_
  unfold sumsq
  refine Finset.sum_congr rfl fun k _ => ?_
  refine (mulf_apply _ _ _).trans ?_
  rw [pay5_at]

/-- The multiplier's update δ at edge `e`. The body's `0 - (dist - d0)` is the specification's `-(dist - d0)`. -/
theorem pay7_at (x0 x1 : Vec Ideal S6x32000 .f32) (e : Fin 32000) :
    k0_pay7 (F := Ideal) x0 x1 (ix2 (0 : Fin 1) e)
      = ldelta (pI x0 e) (pJ x0 e) (x1 (ix2 (0 : Fin 6) e)) (x1 (ix2 (1 : Fin 6) e)) (x1 (ix2 (2 : Fin 6) e))
          (x1 (ix2 (3 : Fin 6) e)) (x1 (ix2 (4 : Fin 6) e)) (x1 (ix2 (5 : Fin 6) e)) := by
  unfold k0_pay7
  simp only [divf_apply, subf_apply, addf_apply, mulf_apply, broadcast_apply, select_apply, cmpf_apply]
  rw [pay6_at, pay2_at, pay3_at, pay4_at,
    rowSlice_at (k0_pay1 x1) 2 slices_S6x32000_o2_0_S1x32000 (2 : Fin 6) rfl e,
    rowSlice_at (k0_pay1 x1) 3 slices_S6x32000_o3_0_S1x32000 (3 : Fin 6) rfl e,
    rowSlice_at (k0_pay1 x1) 5 slices_S6x32000_o5_0_S1x32000 (5 : Fin 6) rfl e,
    pay1_eq, Ideal.ofBits_def, Ideal.ofBits_def, Ideal.ofBits_def, zeroWord_sub]
  rfl

/-- The new multiplier `l + δ` at edge `e`. -/
theorem pay8_at (x0 x1 : Vec Ideal S6x32000 .f32) (e : Fin 32000) :
    k0_pay8 (F := Ideal) x0 x1 (ix2 (0 : Fin 1) e)
      = lnew (pI x0 e) (pJ x0 e) (x1 (ix2 (0 : Fin 6) e)) (x1 (ix2 (1 : Fin 6) e)) (x1 (ix2 (2 : Fin 6) e))
          (x1 (ix2 (3 : Fin 6) e)) (x1 (ix2 (4 : Fin 6) e)) (x1 (ix2 (5 : Fin 6) e)) := by
  unfold k0_pay8
  simp only [addf_apply]
  rw [pay4_at, pay7_at]
  rfl

/-- The first endpoint's update along component `k` at edge `e`: rows 0–2 of the stored block are the first piece. -/
theorem pay9_at_lo (x0 x1 : Vec Ideal S6x32000 .f32) (k : Fin 3) (e : Fin 32000) :
    k0_pay9 (F := Ideal) x0 x1 (ix2 (lo k) e)
      = updI (pI x0 e) (pJ x0 e) (x1 (ix2 (0 : Fin 6) e)) (x1 (ix2 (1 : Fin 6) e)) (x1 (ix2 (2 : Fin 6) e))
          (x1 (ix2 (3 : Fin 6) e)) (x1 (ix2 (4 : Fin 6) e)) (x1 (ix2 (5 : Fin 6) e)) k := by
  unfold k0_pay9
  refine (concatenate_pair_apply_left (t := S6x32000) (s₁ := S3x32000) (s₂ := S3x32000) _ _ _ _ (ix2 (lo k) e) rfl (ix2 k e : S3x32000.Idx)
    (fun b => by match b with | ⟨0, _⟩ => rfl | ⟨1, _⟩ => rfl)).trans ?_
  simp only [mulf_apply, divf_apply, broadcastTo_1b_ab_apply]
  rw [pay2_at, pay7_at, pay5_at, pay6_at]
  rfl

/-- The second endpoint's update along component `k` at edge `e`: rows 3–5 of the stored block are the second piece.
    The body's `0 - wj` is the specification's `-wj`. -/
theorem pay9_at_hi (x0 x1 : Vec Ideal S6x32000 .f32) (k : Fin 3) (e : Fin 32000) :
    k0_pay9 (F := Ideal) x0 x1 (ix2 (hi k) e)
      = updJ (pI x0 e) (pJ x0 e) (x1 (ix2 (0 : Fin 6) e)) (x1 (ix2 (1 : Fin 6) e)) (x1 (ix2 (2 : Fin 6) e))
          (x1 (ix2 (3 : Fin 6) e)) (x1 (ix2 (4 : Fin 6) e)) (x1 (ix2 (5 : Fin 6) e)) k := by
  unfold k0_pay9
  refine (concatenate_pair_apply_right (t := S6x32000) (s₁ := S3x32000) (s₂ := S3x32000) _ _ _ _ (ix2 (hi k) e) rfl rfl (ix2 k e : S3x32000.Idx)
    (fun b hb => by
      match b with
      | ⟨0, _⟩ => exact absurd rfl hb
      | ⟨1, _⟩ => rfl) rfl).trans ?_
  simp only [mulf_apply, divf_apply, subf_apply, broadcast_apply, broadcastTo_1b_ab_apply]
  rw [pay3_at, pay7_at, pay5_at, pay6_at, Ideal.ofBits_def, zeroWord_sub]
  rfl

end Cert.KernelIdeal.PayloadAt

end
-- ==== Proof.ResultArrays.lean ====
/-
  The region's two result arrays as functions of its two operand arrays.

  Column `E` of the operands holds everything edge `E` needs: rows 0–2 and 3–5 of the first operand are the two
  endpoints' positions, rows 0–5 of the second the two inverse masses, the two compliances, the multiplier and the
  rest length. The [1,E] result holds at column `E` the edge's new multiplier; the [6,E] result holds in rows 0–2 the
  first endpoint's update and in rows 3–5 the second's. Since every block is all rows of a range of columns, what a
  point writes back is that function of the operands read through the point's block, and the blocks cover the arrays.
-/
import proofs.«162554_j12610023981116_1_alg».proof.Proof.Blocks
import proofs.«162554_j12610023981116_1_alg».proof.Proof.PayloadAt
import proofs.«162554_j12610023981116_1_alg».proof.Proof.EdgeSpec

set_option maxRecDepth 16384

noncomputable section

namespace Cert.KernelIdeal.ResultArrays

open Cert.KernelIdeal Cert.KernelIdeal.Gen Cert.KernelIdeal.Around Cert.KernelIdeal.Blocks Cert.KernelIdeal.PayloadAt
open Cert.EdgeSpec
open Idealize.ShloMosaic Idealize.ShloMosaic.TcCoe Idealize.ShloMosaic.ValueIdx Idealize.SL.Sem
open Idealize.ShloMosaic.Pipeline (Dat)

/-! ## The two functions -/

section Functions

variable (X0 X1 : S6x8000000.Idx → EReal)

/-- The two endpoints' positions of edge `E`, off the first operand's column `E`. -/
def colI (E : Fin 8000000) : Fin 3 → EReal := fun k => X0 (ix2 (lo k) E)
def colJ (E : Fin 8000000) : Fin 3 → EReal := fun k => X0 (ix2 (hi k) E)

/-- Edge `E`'s new multiplier and its two endpoints' updates, off column `E` of the two operands. -/
def edgeLnew (E : Fin 8000000) : EReal :=
  lnew (colI X0 E) (colJ X0 E) (X1 (ix2 (0 : Fin 6) E)) (X1 (ix2 (1 : Fin 6) E)) (X1 (ix2 (2 : Fin 6) E)) (X1 (ix2 (3 : Fin 6) E)) (X1 (ix2 (4 : Fin 6) E)) (X1 (ix2 (5 : Fin 6) E))
def edgeUpdI (E : Fin 8000000) (k : Fin 3) : EReal :=
  updI (colI X0 E) (colJ X0 E) (X1 (ix2 (0 : Fin 6) E)) (X1 (ix2 (1 : Fin 6) E)) (X1 (ix2 (2 : Fin 6) E)) (X1 (ix2 (3 : Fin 6) E)) (X1 (ix2 (4 : Fin 6) E)) (X1 (ix2 (5 : Fin 6) E)) k
def edgeUpdJ (E : Fin 8000000) (k : Fin 3) : EReal :=
  updJ (colI X0 E) (colJ X0 E) (X1 (ix2 (0 : Fin 6) E)) (X1 (ix2 (1 : Fin 6) E)) (X1 (ix2 (2 : Fin 6) E)) (X1 (ix2 (3 : Fin 6) E)) (X1 (ix2 (4 : Fin 6) E)) (X1 (ix2 (5 : Fin 6) E)) k

/-- The [1,E] result. -/
def O3 : S1x8000000.Idx → EReal := fun i => (fun E : Fin 8000000 => edgeLnew X0 X1 E) (i 1)

/-- The [6,E] result: rows 0–2 the first endpoints' updates, rows 3–5 the second's. -/
def O2 : S6x8000000.Idx → EReal := fun i =>
  (fun (r : Fin 6) (E : Fin 8000000) =>
    if h : r.val < 3 then edgeUpdI X0 X1 E ⟨r.val, h⟩ else edgeUpdJ X0 X1 E ⟨r.val - 3, by omega⟩) (i 0) (i 1)

theorem O3_at (E : Fin 8000000) : O3 X0 X1 (ix2 (0 : Fin 1) E) = edgeLnew X0 X1 E := rfl

theorem O2_lo (k : Fin 3) (E : Fin 8000000) : O2 X0 X1 (ix2 (lo k) E) = edgeUpdI X0 X1 E k := by
  show (if h : (lo k).val < 3 then edgeUpdI X0 X1 E ⟨(lo k).val, h⟩ else edgeUpdJ X0 X1 E ⟨(lo k).val - 3, by omega⟩) = _
  rw [dif_pos (show (lo k).val < 3 from k.isLt)]
  rfl

theorem O2_hi (k : Fin 3) (E : Fin 8000000) : O2 X0 X1 (ix2 (hi k) E) = edgeUpdJ X0 X1 E k := by
  show (if h : (hi k).val < 3 then edgeUpdI X0 X1 E ⟨(hi k).val, h⟩ else edgeUpdJ X0 X1 E ⟨(hi k).val - 3, by omega⟩) = _
  rw [dif_neg (show ¬ (hi k).val < 3 from by show ¬ (k.val + 3 < 3); omega)]
  refine congrArg (edgeUpdJ X0 X1 E) (Fin.ext ?_)
  show k.val + 3 - 3 = k.val
  omega

end Functions

/-- A row number below six is one of the first three or one of the last three. -/
theorem six_cases (r : Fin 6) : (∃ k : Fin 3, r = lo k) ∨ (∃ k : Fin 3, r = hi k) := by
  by_cases h : r.val < 3
  · exact Or.inl ⟨⟨r.val, h⟩, Fin.ext rfl⟩
  · refine Or.inr ⟨⟨r.val - 3, by have := r.isLt; omega⟩, Fin.ext ?_⟩
    show r.val = r.val - 3 + 3
    omega

/-! ## What a point writes back, and the arrays after the run -/

variable (m : (ℓ : Loc nD τ sig) → Buf (Elt Ideal) ℓ)

theorem hz : (![0, 0] : Fin 2 → Nat) = fun _ => 0 := funext fun a => by fin_cases a <;> rfl

/-- Column `e` of the input blocks at point `t` is column 32000·t + e of the operands. -/
theorem pI_blk (c : Dev nD) (t : Fin cfg0.N) (e : Fin 32000) : pI (iblk m c 0 t) e = colI (V m c main_v48) (colOf t e) :=
  funext fun k => iblk0_at m c t (lo k) e
theorem pJ_blk (c : Dev nD) (t : Fin cfg0.N) (e : Fin 32000) : pJ (iblk m c 0 t) e = colJ (V m c main_v48) (colOf t e) :=
  funext fun k => iblk0_at m c t (hi k) e

/-- What point `t` writes back to the [6,E] result is block `t` of `O2` of the operands. -/
theorem flushed2_eq (c : Dev nD) (t : Fin cfg0.N) :
    (dats m 0 c).flushed 2 t = ((cfg0.win 2).blk t).view.read (Elt Ideal) (O2 (V m c main_v48) (V m c main_v55)) := by
  show (cfg0.win 2).cut (grid0.coords t) ((dats m 0 c).after 2 t) = _
  rw [after2]
  unfold out2
  rw [View.canon_unit_zero hz]
  simp only [View.ld_unit_zero (S := S6x32000) hz]
  funext j
  obtain ⟨r, e, rfl⟩ : ∃ (r : Fin 6) (e : Fin 32000), j = ix2 r e := ⟨j 0, j 1, eq_ix2 j⟩
  show k0_pay9 (F := Ideal) (iblk m c 0 t) (iblk m c 1 t) (ix2 r e) = O2 (V m c main_v48) (V m c main_v55) (((cfg0.win 2).blk t).view.emb (ix2 r e))
  rw [emb2]
  rcases six_cases r with ⟨k, rfl⟩ | ⟨k, rfl⟩
  · rw [O2_lo]
    refine (pay9_at_lo (iblk m c 0 t) (iblk m c 1 t) k e).trans ?_
    unfold edgeUpdI
    rw [pI_blk, pJ_blk, iblk1_at, iblk1_at, iblk1_at, iblk1_at, iblk1_at, iblk1_at]
  · rw [O2_hi]
    refine (pay9_at_hi (iblk m c 0 t) (iblk m c 1 t) k e).trans ?_
    unfold edgeUpdJ
    rw [pI_blk, pJ_blk, iblk1_at, iblk1_at, iblk1_at, iblk1_at, iblk1_at, iblk1_at]

/-- And to the [1,E] result, block `t` of `O3`. -/
theorem flushed3_eq (c : Dev nD) (t : Fin cfg0.N) :
    (dats m 0 c).flushed 3 t = ((cfg0.win 3).blk t).view.read (Elt Ideal) (O3 (V m c main_v48) (V m c main_v55)) := by
  show (cfg0.win 3).cut (grid0.coords t) ((dats m 0 c).after 3 t) = _
  rw [after3]
  unfold out3
  rw [View.canon_unit_zero hz]
  simp only [View.ld_unit_zero (S := S6x32000) hz]
  funext j
  obtain ⟨r, e, rfl⟩ : ∃ (r : Fin 1) (e : Fin 32000), j = ix2 r e := ⟨j 0, j 1, eq_ix2 j⟩
  obtain rfl : r = 0 := Subsingleton.elim _ _
  show k0_pay8 (F := Ideal) (iblk m c 0 t) (iblk m c 1 t) (ix2 (0 : Fin 1) e) = O3 (V m c main_v48) (V m c main_v55) (((cfg0.win 3).blk t).view.emb (ix2 (0 : Fin 1) e))
  rw [emb3, O3_at]
  refine (pay8_at (iblk m c 0 t) (iblk m c 1 t) e).trans ?_
  unfold edgeLnew
  rw [pI_blk, pJ_blk, iblk1_at, iblk1_at, iblk1_at, iblk1_at, iblk1_at, iblk1_at]

/-- The result arrays after the run. -/
theorem final2 (c : Dev nD) : (dats m 0 c).arrAt 2 cfg0.N = O2 (V m c main_v48) (V m c main_v55) :=
  (dats m 0 c).arrAt_eq_of_cover 2 (O2 (V m c main_v48) (V m c main_v55)) (fun t _ => flushed2_eq m c t) covered2
theorem final3 (c : Dev nD) : (dats m 0 c).arrAt 3 cfg0.N = O3 (V m c main_v48) (V m c main_v55) :=
  (dats m 0 c).arrAt_eq_of_cover 3 (O3 (V m c main_v48) (V m c main_v55)) (fun t _ => flushed3_eq m c t) covered3

end Cert.KernelIdeal.ResultArrays

end
-- ==== Proof.HostTerms.lean ====
/-
  The host side of the kernel program as pure terms of its six argument arrays.

  Each edge names two nodes (the two columns of the [E,2] integer array). A node number is read signed; a negative
  one has the node count 1000000 added (the usual wrap of a negative index), and the result, as an [E,1] column, is
  the start index of a gather of whole rows. So per edge the program gathers the two endpoints' positions ([E,3]),
  inverse masses and compliances ([E,1] each): six arrays, all of the same two wrapped index columns.
-/
import proofs.«162554_j12610023981116_1_alg».proof.KernelIdeal
import proofs.«162554_j12610023981116_1_alg».proof.Proof.Gen.KernelIdeal
import Idealize.ShloMosaic.PureOps.Ideal

noncomputable section

namespace Cert.KernelIdeal.HostTerms

open Cert.KernelIdeal Cert.KernelIdeal.Facts₀ Idealize.ShloMosaic

/-- The edges' first / second node numbers: column 0 / 1 of the [E,2] array, as a vector. -/
def nodeI (a4 : (⟨S8000000x2, .i32⟩ : BufTy).Contents (Elt Ideal)) : (⟨S8000000, .i32⟩ : BufTy).Contents (Elt Ideal) :=
  shapeCast _ (extractStridedSlice S8000000x1 ![0, 0] a4 slices_S8000000x2_S8000000x1_0_0) shapeCasts_S8000000x1_S8000000
def nodeJ (a4 : (⟨S8000000x2, .i32⟩ : BufTy).Contents (Elt Ideal)) : (⟨S8000000, .i32⟩ : BufTy).Contents (Elt Ideal) :=
  shapeCast _ (extractStridedSlice S8000000x1 ![0, 1] a4 slices_S8000000x2_S8000000x1_0_1) shapeCasts_S8000000x1_S8000000

/-- A vector of node numbers with the negative ones wrapped by the node count, as an [E,1] column of start indices. -/
def wrap (i : (⟨S8000000, .i32⟩ : BufTy).Contents (Elt Ideal)) : (⟨S8000000x1, .i32⟩ : BufTy).Contents (Elt Ideal) :=
  broadcastInDim S8000000x1 ![0] bcast_S8000000_S8000000x1_0
    (select (cmpi .slt i (broadcastInDim S8000000 ![] bcast_S_S8000000 (constantI S_ 32 0#32)))
      (addi i (broadcastInDim S8000000 ![] bcast_S_S8000000 (constantI S_ 32 1000000#32))) i)

/-- Rows of a [N,3] table gathered at a column of start indices, and entries of a [N,1] table. -/
def rows3 (a : (⟨S1000000x3, .f32⟩ : BufTy).Contents (Elt Ideal)) (ix : (⟨S8000000x1, .i32⟩ : BufTy).Contents (Elt Ideal)) :
    (⟨S8000000x3, .f32⟩ : BufTy).Contents (Elt Ideal) :=
  Host.gather gather_S1000000x3_S8000000x1_S8000000x3_1_0_n_n_0_1_13 a ix
def rows1 (a : (⟨S1000000x1, .f32⟩ : BufTy).Contents (Elt Ideal)) (ix : (⟨S8000000x1, .i32⟩ : BufTy).Contents (Elt Ideal)) :
    (⟨S8000000x1, .f32⟩ : BufTy).Contents (Elt Ideal) :=
  Host.gather gather_S1000000x1_S8000000x1_S8000000x1_1_0_n_n_0_1_11 a ix

/-- The first operand of the region: the two endpoints' positions, transposed and stacked ([6,E]). -/
def packedP (a0 : (⟨S1000000x3, .f32⟩ : BufTy).Contents (Elt Ideal)) (a4 : (⟨S8000000x2, .i32⟩ : BufTy).Contents (Elt Ideal)) :
    (⟨S6x8000000, .f32⟩ : BufTy).Contents (Elt Ideal) :=
  concatenate S6x8000000 0
    [⟨S3x8000000, transpose S3x8000000 [1, 0] (rows3 a0 (wrap (nodeI a4))) transposes_S8000000x3_S3x8000000_1_0⟩,
     ⟨S3x8000000, transpose S3x8000000 [1, 0] (rows3 a0 (wrap (nodeJ a4))) transposes_S8000000x3_S3x8000000_1_0⟩]
    concatenates_S3x8000000_S3x8000000_S6x8000000_d0

/-- The second operand: inverse masses and compliances of the two endpoints, the multipliers and the rest lengths, each
    an [E,1] column transposed to a row, stacked ([6,E]). -/
def packedS (a1 : (⟨S8000000x1, .f32⟩ : BufTy).Contents (Elt Ideal)) (a2 a3 : (⟨S1000000x1, .f32⟩ : BufTy).Contents (Elt Ideal))
    (a4 : (⟨S8000000x2, .i32⟩ : BufTy).Contents (Elt Ideal)) (a5 : (⟨S8000000x1, .f32⟩ : BufTy).Contents (Elt Ideal)) :
    (⟨S6x8000000, .f32⟩ : BufTy).Contents (Elt Ideal) :=
  concatenate S6x8000000 0
    [⟨S1x8000000, transpose S1x8000000 [1, 0] (rows1 a2 (wrap (nodeI a4))) transposes_S8000000x1_S1x8000000_1_0⟩,
     ⟨S1x8000000, transpose S1x8000000 [1, 0] (rows1 a2 (wrap (nodeJ a4))) transposes_S8000000x1_S1x8000000_1_0⟩,
     ⟨S1x8000000, transpose S1x8000000 [1, 0] (rows1 a3 (wrap (nodeI a4))) transposes_S8000000x1_S1x8000000_1_0⟩,
     ⟨S1x8000000, transpose S1x8000000 [1, 0] (rows1 a3 (wrap (nodeJ a4))) transposes_S8000000x1_S1x8000000_1_0⟩,
     ⟨S1x8000000, transpose S1x8000000 [1, 0] a1 transposes_S8000000x1_S1x8000000_1_0⟩,
     ⟨S1x8000000, transpose S1x8000000 [1, 0] a5 transposes_S8000000x1_S1x8000000_1_0⟩]
    concatenates_S1x8000000_S1x8000000_S1x8000000_S1x8000000_S1x8000000_S1x8000000_S6x8000000_d0

/-- The program's first result from the region's [6,E] result `O`: the launch positions with the first endpoints'
    updates (rows 0–2 of `O`, transposed back) scatter-added at the first nodes, then the second endpoints' (rows 3–5)
    at the second nodes. -/
def scattered (a0 : (⟨S1000000x3, .f32⟩ : BufTy).Contents (Elt Ideal)) (a4 : (⟨S8000000x2, .i32⟩ : BufTy).Contents (Elt Ideal))
    (O : (⟨S6x8000000, .f32⟩ : BufTy).Contents (Elt Ideal)) : (⟨S1000000x3, .f32⟩ : BufTy).Contents (Elt Ideal) :=
  Host.scatterAdd (F := Ideal) (φ := .f32) scatter_S1000000x3_S8000000x1_S8000000x3_1_0_0_1
    (Host.scatterAdd (F := Ideal) (φ := .f32) scatter_S1000000x3_S8000000x1_S8000000x3_1_0_0_1 a0 (wrap (nodeI a4))
      (transpose S8000000x3 [1, 0] (extractStridedSlice S3x8000000 ![0, 0] O slices_S6x8000000_S3x8000000_0_0) transposes_S3x8000000_S8000000x3_1_0))
    (wrap (nodeJ a4))
    (transpose S8000000x3 [1, 0] (extractStridedSlice S3x8000000 ![3, 0] O slices_S6x8000000_S3x8000000_3_0) transposes_S3x8000000_S8000000x3_1_0)

/-- The program's second result from the region's [1,E] result: transposed back to an [E,1] column. -/
def column (O1 : (⟨S1x8000000, .f32⟩ : BufTy).Contents (Elt Ideal)) : (⟨S8000000x1, .f32⟩ : BufTy).Contents (Elt Ideal) :=
  transpose S8000000x1 [1, 0] O1 transposes_S1x8000000_S8000000x1_1_0

end Cert.KernelIdeal.HostTerms

end
-- ==== Proof.FoundP.lean ====
/-
  The first operand array as the region finds it: the two endpoints' gathered positions, transposed and stacked.
  Read off the host lines before the region, which compute it from the argument arrays alone: the last of them that
  writes this buffer stacks two transposed arrays, and each of those is a gather of rows of the position table at one
  of the two wrapped index columns.
-/
import proofs.«162554_j12610023981116_1_alg».proof.Proof.AroundIdeal
import proofs.«162554_j12610023981116_1_alg».proof.Proof.HostTerms
import Idealize.ShloMosaic.Lib.StableHlo.Run

set_option maxRecDepth 16384

noncomputable section

namespace Cert.KernelIdeal.FoundP

open Cert.KernelIdeal Cert.KernelIdeal.Facts₀ Cert.KernelIdeal.Gen Cert.KernelIdeal.Around Cert.KernelIdeal.HostTerms
open Idealize.ShloMosaic Idealize.ShloMosaic.TcCoe Idealize.SL.Sem Idealize.ShloMosaic.StableHlo

variable (m : (ℓ : Loc nD τ sig) → Buf (Elt Ideal) ℓ)

/-- Two stacks of equal pieces are equal. -/
theorem stackP_congr {p p' q q' : (⟨S3x8000000, .f32⟩ : BufTy).Contents (Elt Ideal)} (hp : p = p') (hq : q = q') :
    concatenate S6x8000000 0 [⟨S3x8000000, p⟩, ⟨S3x8000000, q⟩] Facts₀.concatenates_S3x8000000_S3x8000000_S6x8000000_d0
      = concatenate S6x8000000 0 [⟨S3x8000000, p'⟩, ⟨S3x8000000, q'⟩] Facts₀.concatenates_S3x8000000_S3x8000000_S6x8000000_d0 := by
  subst hp; subst hq; rfl

set_option maxHeartbeats 4000000 in
theorem found_P (c : Dev nD) : (V m c main_v48 : (⟨S6x8000000, .f32⟩ : BufTy).Contents (Elt Ideal))
    = packedP (m ((c : Thread nD τ).loc main_arg0)) (m ((c : Thread nD τ).loc main_arg4)) := by
  show StableHlo.after hostOps0 (fun b => m (c, b)) (Proc.devRef .tc main_v48) = _
  after_results_simp
  unfold packedP
  refine stackP_congr ?_ ?_
  · after_results_simp; rfl
  · after_results_simp; rfl

end Cert.KernelIdeal.FoundP

end
-- ==== Proof.HostSide.lean ====
/-
  The second operand of the region, as the host lines before it leave it.

  Sixty-eight host lines run before the region; each writes one buffer of its own, once, from buffers written earlier
  or from the six argument arrays. The last of them stacks six [1,E] rows into the [6,E] array the region reads as its
  second operand. Reading the lines backwards from that buffer: each row is an [E,1] column transposed; four of the
  columns are gathers, from the inverse masses and from the compliances, at the first and at the second node of every
  edge (a node number read signed, a negative one wrapped by the node count); the other two are the multipliers and
  the rest lengths as launched. That is the term packedS of the five argument arrays involved.

  A stack of rows is determined by its rows, so the claim is shown row by row: the buffer the last line reads for row
  k holds the k-th row of packedS.
-/
import proofs.«162554_j12610023981116_1_alg».proof.Proof.AroundIdeal
import proofs.«162554_j12610023981116_1_alg».proof.Proof.HostTerms
import Idealize.ShloMosaic.Lib.StableHlo.Run

set_option maxRecDepth 16384

noncomputable section

namespace Cert.KernelIdeal.HostSide

open Cert.KernelIdeal Cert.KernelIdeal.Gen Cert.KernelIdeal.Around Cert.KernelIdeal.HostTerms Idealize.ShloMosaic Idealize.ShloMosaic.TcCoe Idealize.SL.Sem Idealize.ShloMosaic.StableHlo

variable (m : (ℓ : Loc nD τ sig) → Buf (Elt Ideal) ℓ)

/-- Six [1,E] rows stacked: equal rows give equal stacks. -/
theorem stackS_congr {a0 a0' a1 a1' a2 a2' a3 a3' a4 a4' a5 a5' : (⟨S1x8000000, .f32⟩ : BufTy).Contents (Elt Ideal)}
    (h0 : a0 = a0') (h1 : a1 = a1') (h2 : a2 = a2') (h3 : a3 = a3') (h4 : a4 = a4') (h5 : a5 = a5') :
    concatenate S6x8000000 0 [⟨S1x8000000, a0⟩, ⟨S1x8000000, a1⟩, ⟨S1x8000000, a2⟩, ⟨S1x8000000, a3⟩, ⟨S1x8000000, a4⟩, ⟨S1x8000000, a5⟩]
        concatenates_S1x8000000_S1x8000000_S1x8000000_S1x8000000_S1x8000000_S1x8000000_S6x8000000_d0
      = concatenate S6x8000000 0 [⟨S1x8000000, a0'⟩, ⟨S1x8000000, a1'⟩, ⟨S1x8000000, a2'⟩, ⟨S1x8000000, a3'⟩, ⟨S1x8000000, a4'⟩, ⟨S1x8000000, a5'⟩]
        concatenates_S1x8000000_S1x8000000_S1x8000000_S1x8000000_S1x8000000_S1x8000000_S6x8000000_d0 := by
  subst h0 h1 h2 h3 h4 h5; rfl

set_option maxHeartbeats 4000000 in
/-- When the region is entered, its second operand holds the six stacked rows: the two endpoints' inverse masses, their
    compliances, the multipliers and the rest lengths. The last line's result is the stack of the six buffers it reads;
    rows 0–3 are each a transposed gather at a wrapped node column, rows 4 and 5 a transposed argument array. -/
theorem found_S (c : Dev nD) :
    (V m c main_v55 : (⟨S6x8000000, .f32⟩ : BufTy).Contents (Elt Ideal))
      = packedS (m ((c : Thread nD τ).loc main_arg1)) (m ((c : Thread nD τ).loc main_arg2)) (m ((c : Thread nD τ).loc main_arg3))
          (m ((c : Thread nD τ).loc main_arg4)) (m ((c : Thread nD τ).loc main_arg5)) := by
  show StableHlo.after hostOps0 (fun b => m (c, b)) (Proc.devRef .tc main_v55) = _
  after_results_simp
  dsimp only [Matrix.cons_val]
  unfold packedS
  refine stackS_congr ?_ ?_ ?_ ?_ ?_ ?_
  · after_results_simp
    rfl
  · after_results_simp
    rfl
  · after_results_simp
    rfl
  · after_results_simp
    rfl
  · after_results_simp
  · after_results_simp

end Cert.KernelIdeal.HostSide

end
-- ==== Proof.TailSide.lean ====
/-
  The host lines around the region, read as pure terms.

  Before the region the program cuts the two columns of the edges' node numbers out of the [E,2] integer array: the
  region finds them as the two vectors of first and second node numbers. After the region it cuts rows 0–2 and rows 3–5
  out of the six-row result, transposes each back to [E,3], wraps the two vectors of node numbers once more into
  columns of start indices, and scatter-adds the two update arrays onto the launch positions; the one-row result it
  transposes back to a column. So the two final buffers are those terms of the launch arrays and of the region's two
  result arrays.
-/
import proofs.«162554_j12610023981116_1_alg».proof.Proof.AroundIdeal
import proofs.«162554_j12610023981116_1_alg».proof.Proof.HostTerms
import Idealize.ShloMosaic.Lib.StableHlo.Run

set_option maxRecDepth 16384

noncomputable section

namespace Cert.KernelIdeal.TailSide

open Cert.KernelIdeal Cert.KernelIdeal.Gen Cert.KernelIdeal.Around Cert.KernelIdeal.HostTerms
open Idealize.ShloMosaic Idealize.ShloMosaic.TcCoe Idealize.SL.Sem Idealize.ShloMosaic.StableHlo

variable (m : (ℓ : Loc nD τ sig) → Buf (Elt Ideal) ℓ)

/-! ## What the region finds in the two vectors of node numbers -/

set_option maxHeartbeats 4000000 in
/-- The first node numbers: column 0 of the launch's [E,2] array, as a vector. No later line before the region writes it. -/
theorem found_nodeI (c : Dev nD) :
    (V m c main_v1 : (⟨S8000000, .i32⟩ : BufTy).Contents (Elt Ideal)) = nodeI (m ((c : Thread nD τ).loc main_arg4)) := by
  show StableHlo.after hostOps0 (fun b => m (c, b)) (Proc.devRef .tc main_v1) = _
  after_results_simp
  rfl

set_option maxHeartbeats 4000000 in
/-- The second node numbers: column 1 of the same array. -/
theorem found_nodeJ (c : Dev nD) :
    (V m c main_v3 : (⟨S8000000, .i32⟩ : BufTy).Contents (Elt Ideal)) = nodeJ (m ((c : Thread nD τ).loc main_arg4)) := by
  show StableHlo.after hostOps0 (fun b => m (c, b)) (Proc.devRef .tc main_v3) = _
  after_results_simp
  rfl

/-! ## What the later lines find

After the region the region's two result arrays hold what its points wrote back, and every other buffer is as the
region found it. -/

/-- The six-row result array. -/
theorem later_res2 (c : Dev nD) :
    Pipeline.withArrays (cfgs 0).spec c (V0 m c) (fun w => (dats m 0 c).arrAt w (cfgs 0).N) (Proc.devRef .tc main_v56_0)
      = (dats m 0 c).arrAt 2 cfg0.N :=
  Pipeline.withArrays_arr spec0 launch0.win.arr_inj c _ _ (2 : Fin 4)

/-- The one-row result array. -/
theorem later_res3 (c : Dev nD) :
    Pipeline.withArrays (cfgs 0).spec c (V0 m c) (fun w => (dats m 0 c).arrAt w (cfgs 0).N) (Proc.devRef .tc main_v56_1)
      = (dats m 0 c).arrAt 3 cfg0.N :=
  Pipeline.withArrays_arr spec0 launch0.win.arr_inj c _ _ (3 : Fin 4)

/-- The first node numbers are still the first column of the launch's [E,2] array. -/
theorem later_nodeI (c : Dev nD) :
    (Pipeline.withArrays (cfgs 0).spec c (V0 m c) (fun w => (dats m 0 c).arrAt w (cfgs 0).N) (Proc.devRef .tc main_v1)
        : (⟨S8000000, .i32⟩ : BufTy).Contents (Elt Ideal))
      = nodeI (m ((c : Thread nD τ).loc main_arg4)) :=
  (Pipeline.withArrays_of_ne _ c (V0 m c) _ main_v1 (by decide)).trans (found_nodeI m c)

/-- The second node numbers the second column. -/
theorem later_nodeJ (c : Dev nD) :
    (Pipeline.withArrays (cfgs 0).spec c (V0 m c) (fun w => (dats m 0 c).arrAt w (cfgs 0).N) (Proc.devRef .tc main_v3)
        : (⟨S8000000, .i32⟩ : BufTy).Contents (Elt Ideal))
      = nodeJ (m ((c : Thread nD τ).loc main_arg4)) :=
  (Pipeline.withArrays_of_ne _ c (V0 m c) _ main_v3 (by decide)).trans (found_nodeJ m c)

/-- The positions array is as launched: no line before the region writes it. -/
theorem later_arg0 (c : Dev nD) :
    Pipeline.withArrays (cfgs 0).spec c (V0 m c) (fun w => (dats m 0 c).arrAt w (cfgs 0).N) (Proc.devRef .tc main_arg0)
      = m ((c : Thread nD τ).loc main_arg0) :=
  (Pipeline.withArrays_of_ne _ c (V0 m c) _ main_arg0 (by decide)).trans
    (V_of_not_written m c main_arg0 (before_keeps_args main_arg0 (by simp)))

/-! ## The two final buffers -/

set_option maxHeartbeats 4000000 in
/-- The program's second result: the one-row result array transposed back to a column. -/
theorem tail_out1 (c : Dev nD) :
    Pipeline.afterTail₀ cfgs (dats m) 0 (V0 m) [hostOps1] c main_v61 = column ((dats m 0 c).arrAt 3 cfg0.N) := by
  unfold Pipeline.afterTail₀
  show StableHlo.after hostOps1 _ (Proc.devRef .tc main_v61) = _
  after_results_simp
  rw [later_res3]
  rfl

set_option maxHeartbeats 4000000 in
/-- The program's first result: the launch positions with rows 0–2 of the six-row result array, transposed back,
    scatter-added at the wrapped first node numbers, then rows 3–5 at the wrapped second node numbers. -/
theorem tail_out0 (c : Dev nD) :
    Pipeline.afterTail₀ cfgs (dats m) 0 (V0 m) [hostOps1] c main_v75
      = scattered (m ((c : Thread nD τ).loc main_arg0)) (m ((c : Thread nD τ).loc main_arg4)) ((dats m 0 c).arrAt 2 cfg0.N) := by
  unfold Pipeline.afterTail₀
  show StableHlo.after hostOps1 _ (Proc.devRef .tc main_v75) = _
  after_results_simp
  rw [later_arg0, later_nodeI, later_nodeJ, later_res2]
  rfl

end Cert.KernelIdeal.TailSide

end
-- ==== Proof.LayoutAt.lean ====
/-
  The layout operations around the edge computation, read at an index.

  The edge data reach the computation as two arrays of six rows and E columns (E the number of edges), and its two
  results come back the same way: one of six rows, one of a single row. Nothing is computed on the way; every entry
  is moved.

  Going in. The two [E,3] arrays of endpoint positions are transposed to [3,E] and stacked along the rows: row k of the
  stack (k < 3) is component k of the first endpoint, row k + 3 is component k of the second. Each [E,1] column is
  transposed to a [1,E] row, and six such rows are stacked: row r of the stack is the r-th of them.

  Coming back. Rows 0–2 and rows 3–5 of the six-row result are cut out and transposed to [E,3]: entry (e, k) of the
  first is entry (k, e) of the result, entry (e, k) of the second is entry (k + 3, e). The one-row result is transposed
  to an [E,1] column.

  Each statement says which entry of the operand an entry of the rearranged array is. The rows k and k + 3 of a
  six-row array are written lo k and hi k.
-/
import proofs.«162554_j12610023981116_1_alg».proof.KernelIdeal
import proofs.«162554_j12610023981116_1_alg».proof.Proof.EdgeSpec
import Idealize.ShloMosaic.Lib.ValueIdx
import Idealize.ShloMosaic.Lib.ValueLayout
import Idealize.ShloMosaic.Lib.Pipeline.Value

namespace Cert.KernelIdeal.LayoutAt

open Cert.KernelIdeal Cert.KernelIdeal.Facts₀ Idealize.ShloMosaic Idealize.ShloMosaic.ValueIdx Cert.EdgeSpec

variable [Cert.KernelIdeal.Facts] {α : Type}

/-! ## Going in -/

/-- An [E,1] column transposed to a [1,E] row: entry (0, e) of the row is entry (e, 0) of the column. -/
theorem rowOfCol (X : S8000000x1.Idx → α) (e : Fin 8000000) :
    transpose S1x8000000 [1, 0] X transposes_S8000000x1_S1x8000000_1_0 (ix2 (0 : Fin 1) e) = X (ix2 e (0 : Fin 1)) :=
  transpose_ix2_apply X _ (0 : Fin 1) e

/-- Row k of the stack, k < 3, lies in the first piece: entry (k, e) of the stack is entry (k, e) of the first
    transposed array, which is entry (e, k) of the first endpoints' positions. -/
theorem packP_lo (Pi Pj : S8000000x3.Idx → α) (k : Fin 3) (e : Fin 8000000) :
    concatenate S6x8000000 0 [⟨S3x8000000, transpose S3x8000000 [1, 0] Pi transposes_S8000000x3_S3x8000000_1_0⟩, ⟨S3x8000000, transpose S3x8000000 [1, 0] Pj transposes_S8000000x3_S3x8000000_1_0⟩] concatenates_S3x8000000_S3x8000000_S6x8000000_d0 (ix2 (lo k) e) = Pi (ix2 e k) := by
  refine (concatenate_pair_apply_left (t := S6x8000000) (s₁ := S3x8000000) (s₂ := S3x8000000) 0 _ _
    concatenates_S3x8000000_S3x8000000_S6x8000000_d0 (ix2 (lo k) e) rfl (ix2 k e) (fun b => ?_)).trans ?_
  · match b with
    | ⟨0, _⟩ => rfl
    | ⟨1, _⟩ => rfl
  · exact transpose_ix2_apply Pi _ k e

/-- Row k + 3 of the stack lies in the second piece, three rows down: entry (k + 3, e) of the stack is entry (k, e) of
    the second transposed array, which is entry (e, k) of the second endpoints' positions. -/
theorem packP_hi (Pi Pj : S8000000x3.Idx → α) (k : Fin 3) (e : Fin 8000000) :
    concatenate S6x8000000 0 [⟨S3x8000000, transpose S3x8000000 [1, 0] Pi transposes_S8000000x3_S3x8000000_1_0⟩, ⟨S3x8000000, transpose S3x8000000 [1, 0] Pj transposes_S8000000x3_S3x8000000_1_0⟩] concatenates_S3x8000000_S3x8000000_S6x8000000_d0 (ix2 (hi k) e) = Pj (ix2 e k) := by
  refine (concatenate_pair_apply_right (t := S6x8000000) (s₁ := S3x8000000) (s₂ := S3x8000000) 0 _ _
    concatenates_S3x8000000_S3x8000000_S6x8000000_d0 (ix2 (hi k) e) rfl rfl (ix2 k e) (fun b hb => ?_) ?_).trans ?_
  · match b with
    | ⟨0, _⟩ => exact absurd rfl hb
    | ⟨1, _⟩ => rfl
  · rfl
  · exact transpose_ix2_apply Pj _ k e

/-- Six [1,E] rows stacked: each piece is one row high, so row r of the stack is the r-th piece's only row. -/
theorem packS (w : Fin 6 → (S1x8000000.Idx → α)) (r : Fin 6) (e : Fin 8000000) :
    concatenate S6x8000000 0 [⟨S1x8000000, w 0⟩, ⟨S1x8000000, w 1⟩, ⟨S1x8000000, w 2⟩, ⟨S1x8000000, w 3⟩, ⟨S1x8000000, w 4⟩, ⟨S1x8000000, w 5⟩] concatenates_S1x8000000_S1x8000000_S1x8000000_S1x8000000_S1x8000000_S1x8000000_S6x8000000_d0 (ix2 r e) = w r (ix2 (0 : Fin 1) e) :=
  concatenate_ofFn_unit_apply (t := S6x8000000) (s₁ := S1x8000000) 0 w
    concatenates_S1x8000000_S1x8000000_S1x8000000_S1x8000000_S1x8000000_S1x8000000_S6x8000000_d0 rfl rfl (ix2 r e) r rfl
    (ix2 (0 : Fin 1) e) (fun b hb => by
      match b with
      | ⟨0, _⟩ => exact absurd rfl hb
      | ⟨1, _⟩ => rfl)

/-! ## Coming back -/

/-- Rows 0–2 cut out and transposed: entry (e, k) is entry (k, e) of the cut, which is entry (k, e) of the six-row
    array. -/
theorem unpack_lo (O : S6x8000000.Idx → α) (e : Fin 8000000) (k : Fin 3) :
    transpose S8000000x3 [1, 0] (extractStridedSlice S3x8000000 ![0, 0] O slices_S6x8000000_S3x8000000_0_0) transposes_S3x8000000_S8000000x3_1_0 (ix2 e k) = O (ix2 (lo k) e) := by
  refine (transpose_ix2_apply _ _ e k).trans ?_
  exact slice2_axis0_apply 0 O slices_S6x8000000_S3x8000000_0_0 k e (lo k) (Nat.zero_add _).symm

/-- Rows 3–5 cut out and transposed: entry (e, k) is entry (k, e) of the cut, which is entry (k + 3, e) of the six-row
    array. -/
theorem unpack_hi (O : S6x8000000.Idx → α) (e : Fin 8000000) (k : Fin 3) :
    transpose S8000000x3 [1, 0] (extractStridedSlice S3x8000000 ![3, 0] O slices_S6x8000000_S3x8000000_3_0) transposes_S3x8000000_S8000000x3_1_0 (ix2 e k) = O (ix2 (hi k) e) := by
  refine (transpose_ix2_apply _ _ e k).trans ?_
  exact slice2_axis0_apply 3 O slices_S6x8000000_S3x8000000_3_0 k e (hi k) (Nat.add_comm _ _)

/-- A [1,E] row transposed to an [E,1] column: entry (e, 0) of the column is entry (0, e) of the row. -/
theorem colOfRow (O1 : S1x8000000.Idx → α) (e : Fin 8000000) :
    transpose S8000000x1 [1, 0] O1 transposes_S1x8000000_S8000000x1_1_0 (ix2 e (0 : Fin 1)) = O1 (ix2 (0 : Fin 1) e) :=
  transpose_ix2_apply O1 _ e (0 : Fin 1)

end Cert.KernelIdeal.LayoutAt
-- ==== Proof.KernelIsSpec.lean ====
/-
  The kernel program's results are the specification's arrays.

  The program gathers, per edge, the two endpoints' positions, inverse masses and compliances, lays them out with the
  multipliers and rest lengths as two arrays of six rows and one column per edge, runs the edge computation column by
  column, and lays the two results back out edge by row. Entry by entry, the layout only moves values: column `e` of
  the first six-row array holds the two gathered positions of edge `e`, column `e` of the second the six gathered
  scalars. So the new multipliers and the two update arrays are the specification's functions of the eight gathered arrays,
  and the program's first result is the launch positions with the two update arrays scatter-added at the edges' nodes.
-/
import proofs.«162554_j12610023981116_1_alg».proof.Proof.ResultArrays
import proofs.«162554_j12610023981116_1_alg».proof.Proof.LayoutAt
import proofs.«162554_j12610023981116_1_alg».proof.Proof.HostTerms
import proofs.«162554_j12610023981116_1_alg».proof.Proof.EdgeSpec

noncomputable section

namespace Cert.KernelIdeal.KernelIsSpec

open Cert.KernelIdeal Cert.KernelIdeal.Facts₀ Cert.KernelIdeal.HostTerms Cert.KernelIdeal.ResultArrays
open Cert.KernelIdeal.LayoutAt Cert.EdgeSpec Idealize.ShloMosaic Idealize.ShloMosaic.ValueIdx

variable (a0 : (⟨S1000000x3, .f32⟩ : BufTy).Contents (Elt Ideal)) (a1 : (⟨S8000000x1, .f32⟩ : BufTy).Contents (Elt Ideal))
  (a2 a3 : (⟨S1000000x1, .f32⟩ : BufTy).Contents (Elt Ideal)) (a4 : (⟨S8000000x2, .i32⟩ : BufTy).Contents (Elt Ideal))
  (a5 : (⟨S8000000x1, .f32⟩ : BufTy).Contents (Elt Ideal))

/-! ## Column `e` of the two operands -/

/-- Rows 0–2 of the first operand's column `e` are the first endpoint's gathered position. -/
theorem colI_packed (e : Fin 8000000) (k : Fin 3) :
    colI (packedP a0 a4) e k = rows3 a0 (wrap (nodeI a4)) (ix2 e k) := by
  show packedP a0 a4 (ix2 (lo k) e) = _
  unfold packedP
  exact packP_lo _ _ k e

/-- Rows 3–5 of the first operand's column `e` are the second endpoint's gathered position. -/
theorem colJ_packed (e : Fin 8000000) (k : Fin 3) :
    colJ (packedP a0 a4) e k = rows3 a0 (wrap (nodeJ a4)) (ix2 e k) := by
  show packedP a0 a4 (ix2 (hi k) e) = _
  unfold packedP
  exact packP_hi _ _ k e

/-- The same two facts for the whole triples: they are the specification's rows of the gathered positions. -/
theorem colI_packed_row (e : Fin 8000000) : colI (packedP a0 a4) e = row (rows3 a0 (wrap (nodeI a4))) e :=
  funext fun k => colI_packed a0 a4 e k
theorem colJ_packed_row (e : Fin 8000000) : colJ (packedP a0 a4) e = row (rows3 a0 (wrap (nodeJ a4))) e :=
  funext fun k => colJ_packed a0 a4 e k

/-- The six [E,1] columns whose transposes are stacked into the second operand, in the order of its rows. -/
def colsS : Fin 6 → (S8000000x1.Idx → EReal) :=
  ![rows1 a2 (wrap (nodeI a4)), rows1 a2 (wrap (nodeJ a4)), rows1 a3 (wrap (nodeI a4)), rows1 a3 (wrap (nodeJ a4)), a1, a5]

/-- Row `r` of the second operand at column `e` is the `r`-th column's entry for edge `e`. -/
theorem packedS_at (r : Fin 6) (e : Fin 8000000) :
    packedS a1 a2 a3 a4 a5 (ix2 r e) = colsS a1 a2 a3 a4 a5 r (ix2 e (0 : Fin 1)) := by
  unfold packedS
  refine (packS (fun r => transpose S1x8000000 [1, 0] (colsS a1 a2 a3 a4 a5 r) transposes_S8000000x1_S1x8000000_1_0) r e).trans ?_
  exact rowOfCol (colsS a1 a2 a3 a4 a5 r) e

/-- Row 0 of the second operand: the first endpoint's gathered inverse mass. -/
theorem packedS_at0 (e : Fin 8000000) :
    packedS a1 a2 a3 a4 a5 (ix2 (0 : Fin 6) e) = rows1 a2 (wrap (nodeI a4)) (ix2 e (0 : Fin 1)) :=
  packedS_at a1 a2 a3 a4 a5 0 e
/-- Row 1: the second endpoint's gathered inverse mass. -/
theorem packedS_at1 (e : Fin 8000000) :
    packedS a1 a2 a3 a4 a5 (ix2 (1 : Fin 6) e) = rows1 a2 (wrap (nodeJ a4)) (ix2 e (0 : Fin 1)) :=
  packedS_at a1 a2 a3 a4 a5 1 e
/-- Row 2: the first endpoint's gathered compliance. -/
theorem packedS_at2 (e : Fin 8000000) :
    packedS a1 a2 a3 a4 a5 (ix2 (2 : Fin 6) e) = rows1 a3 (wrap (nodeI a4)) (ix2 e (0 : Fin 1)) :=
  packedS_at a1 a2 a3 a4 a5 2 e
/-- Row 3: the second endpoint's gathered compliance. -/
theorem packedS_at3 (e : Fin 8000000) :
    packedS a1 a2 a3 a4 a5 (ix2 (3 : Fin 6) e) = rows1 a3 (wrap (nodeJ a4)) (ix2 e (0 : Fin 1)) :=
  packedS_at a1 a2 a3 a4 a5 3 e
/-- Row 4: the multiplier. -/
theorem packedS_at4 (e : Fin 8000000) :
    packedS a1 a2 a3 a4 a5 (ix2 (4 : Fin 6) e) = a1 (ix2 e (0 : Fin 1)) :=
  packedS_at a1 a2 a3 a4 a5 4 e
/-- Row 5: the rest length. -/
theorem packedS_at5 (e : Fin 8000000) :
    packedS a1 a2 a3 a4 a5 (ix2 (5 : Fin 6) e) = a5 (ix2 e (0 : Fin 1)) :=
  packedS_at a1 a2 a3 a4 a5 5 e

/-! ## The three result arrays -/

/-- The program's second result, the column of new multipliers, is the specification's. -/
theorem newL_of_kernel :
    column (O3 (packedP a0 a4) (packedS a1 a2 a3 a4 a5))
      = newL (rows3 a0 (wrap (nodeI a4))) (rows3 a0 (wrap (nodeJ a4))) (rows1 a2 (wrap (nodeI a4))) (rows1 a2 (wrap (nodeJ a4)))
          (rows1 a3 (wrap (nodeI a4))) (rows1 a3 (wrap (nodeJ a4))) a1 a5 := by
  funext j
  obtain ⟨e, k, rfl⟩ : ∃ (e : Fin 8000000) (k : Fin 1), j = ix2 e k := ⟨j 0, j 1, eq_ix2 j⟩
  obtain rfl : k = 0 := Subsingleton.elim _ _
  rw [newL_ix2]
  unfold column
  refine (colOfRow _ e).trans ?_
  rw [O3_at]
  unfold edgeLnew
  rw [colI_packed_row, colJ_packed_row, packedS_at0, packedS_at1, packedS_at2, packedS_at3, packedS_at4, packedS_at5]
  rfl

/-- Rows 0–2 of the six-row result, laid back out edge by row, are the specification's first update array. -/
theorem updI_of_kernel :
    transpose S8000000x3 [1, 0] (extractStridedSlice S3x8000000 ![0, 0] (O2 (packedP a0 a4) (packedS a1 a2 a3 a4 a5))
        slices_S6x8000000_S3x8000000_0_0) transposes_S3x8000000_S8000000x3_1_0
      = updIArr (rows3 a0 (wrap (nodeI a4))) (rows3 a0 (wrap (nodeJ a4))) (rows1 a2 (wrap (nodeI a4))) (rows1 a2 (wrap (nodeJ a4)))
          (rows1 a3 (wrap (nodeI a4))) (rows1 a3 (wrap (nodeJ a4))) a1 a5 := by
  funext j
  obtain ⟨e, k, rfl⟩ : ∃ (e : Fin 8000000) (k : Fin 3), j = ix2 e k := ⟨j 0, j 1, eq_ix2 j⟩
  rw [updIArr_ix2]
  refine (unpack_lo _ e k).trans ?_
  rw [O2_lo]
  unfold edgeUpdI
  rw [colI_packed_row, colJ_packed_row, packedS_at0, packedS_at1, packedS_at2, packedS_at3, packedS_at4, packedS_at5]
  rfl

/-- Rows 3–5 likewise are the specification's second update array. -/
theorem updJ_of_kernel :
    transpose S8000000x3 [1, 0] (extractStridedSlice S3x8000000 ![3, 0] (O2 (packedP a0 a4) (packedS a1 a2 a3 a4 a5))
        slices_S6x8000000_S3x8000000_3_0) transposes_S3x8000000_S8000000x3_1_0
      = updJArr (rows3 a0 (wrap (nodeI a4))) (rows3 a0 (wrap (nodeJ a4))) (rows1 a2 (wrap (nodeI a4))) (rows1 a2 (wrap (nodeJ a4)))
          (rows1 a3 (wrap (nodeI a4))) (rows1 a3 (wrap (nodeJ a4))) a1 a5 := by
  funext j
  obtain ⟨e, k, rfl⟩ : ∃ (e : Fin 8000000) (k : Fin 3), j = ix2 e k := ⟨j 0, j 1, eq_ix2 j⟩
  rw [updJArr_ix2]
  refine (unpack_hi _ e k).trans ?_
  rw [O2_hi]
  unfold edgeUpdJ
  rw [colI_packed_row, colJ_packed_row, packedS_at0, packedS_at1, packedS_at2, packedS_at3, packedS_at4, packedS_at5]
  rfl

/-- The program's first result: the launch positions with the specification's two update arrays scatter-added at the edges'
    first and second nodes. -/
theorem out0_of_kernel :
    scattered a0 a4 (O2 (packedP a0 a4) (packedS a1 a2 a3 a4 a5))
      = Host.scatterAdd (F := Ideal) (φ := .f32) scatter_S1000000x3_S8000000x1_S8000000x3_1_0_0_1
          (Host.scatterAdd (F := Ideal) (φ := .f32) scatter_S1000000x3_S8000000x1_S8000000x3_1_0_0_1 a0 (wrap (nodeI a4))
            (updIArr (rows3 a0 (wrap (nodeI a4))) (rows3 a0 (wrap (nodeJ a4))) (rows1 a2 (wrap (nodeI a4))) (rows1 a2 (wrap (nodeJ a4)))
              (rows1 a3 (wrap (nodeI a4))) (rows1 a3 (wrap (nodeJ a4))) a1 a5))
          (wrap (nodeJ a4))
          (updJArr (rows3 a0 (wrap (nodeI a4))) (rows3 a0 (wrap (nodeJ a4))) (rows1 a2 (wrap (nodeI a4))) (rows1 a2 (wrap (nodeJ a4)))
            (rows1 a3 (wrap (nodeI a4))) (rows1 a3 (wrap (nodeJ a4))) a1 a5) := by
  unfold scattered
  rw [updI_of_kernel, updJ_of_kernel]

end Cert.KernelIdeal.KernelIsSpec

end
-- ==== Proof.KernelRun.lean ====
/-
  The idealized kernel program's run, with its two results named.

  The frame run leaves each result array of the region as the blocks written back, which are one function of the two
  operand arrays; the operand arrays are the gathered and stacked argument arrays; the later host lines slice,
  transpose and scatter-add. Put together: the second result is the column of new multipliers, and the first is the
  launch positions with the two endpoints' updates scatter-added at the edges' two nodes.
-/
import proofs.«162554_j12610023981116_1_alg».proof.Proof.ResultArrays
import proofs.«162554_j12610023981116_1_alg».proof.Proof.FoundP
import proofs.«162554_j12610023981116_1_alg».proof.Proof.HostSide
import proofs.«162554_j12610023981116_1_alg».proof.Proof.TailSide
import proofs.«162554_j12610023981116_1_alg».proof.Proof.KernelIsSpec

set_option maxRecDepth 16384

noncomputable section

namespace Cert.KernelIdeal.ValueRun

open Cert.KernelIdeal Cert.KernelIdeal.Gen Cert.KernelIdeal.Around Cert.KernelIdeal.HostTerms Cert.KernelIdeal.ResultArrays
open Cert.KernelIdeal.FoundP Cert.KernelIdeal.HostSide Cert.KernelIdeal.TailSide Cert.KernelIdeal.KernelIsSpec Cert.EdgeSpec
open Idealize.ShloMosaic Idealize.ShloMosaic.TcCoe Idealize.SL.Sem

variable (a0 : (⟨S1000000x3, .f32⟩ : BufTy).Contents (Elt Ideal)) (a1 : (⟨S8000000x1, .f32⟩ : BufTy).Contents (Elt Ideal))
  (a2 a3 : (⟨S1000000x1, .f32⟩ : BufTy).Contents (Elt Ideal)) (a4 : (⟨S8000000x2, .i32⟩ : BufTy).Contents (Elt Ideal))
  (a5 : (⟨S8000000x1, .f32⟩ : BufTy).Contents (Elt Ideal))

/-- The program's second result as a function of its arguments: the new multipliers. -/
def result1 : (⟨S8000000x1, .f32⟩ : BufTy).Contents (Elt Ideal) :=
  newL (rows3 a0 (wrap (nodeI a4))) (rows3 a0 (wrap (nodeJ a4))) (rows1 a2 (wrap (nodeI a4))) (rows1 a2 (wrap (nodeJ a4)))
    (rows1 a3 (wrap (nodeI a4))) (rows1 a3 (wrap (nodeJ a4))) a1 a5

/-- Its first result: the positions with both endpoints' updates scatter-added. -/
def result0 : (⟨S1000000x3, .f32⟩ : BufTy).Contents (Elt Ideal) :=
  Host.scatterAdd (F := Ideal) (φ := .f32) scatter_S1000000x3_S8000000x1_S8000000x3_1_0_0_1
    (Host.scatterAdd (F := Ideal) (φ := .f32) scatter_S1000000x3_S8000000x1_S8000000x3_1_0_0_1 a0 (wrap (nodeI a4))
      (updIArr (rows3 a0 (wrap (nodeI a4))) (rows3 a0 (wrap (nodeJ a4))) (rows1 a2 (wrap (nodeI a4))) (rows1 a2 (wrap (nodeJ a4)))
        (rows1 a3 (wrap (nodeI a4))) (rows1 a3 (wrap (nodeJ a4))) a1 a5))
    (wrap (nodeJ a4))
    (updJArr (rows3 a0 (wrap (nodeI a4))) (rows3 a0 (wrap (nodeJ a4))) (rows1 a2 (wrap (nodeI a4))) (rows1 a2 (wrap (nodeJ a4)))
      (rows1 a3 (wrap (nodeI a4))) (rows1 a3 (wrap (nodeJ a4))) a1 a5)

variable (m : (ℓ : Loc nD τ sig) → Buf (Elt Ideal) ℓ) (ρ : Dev nD → PrngReg)

/-- What the later host lines leave in the two result buffers. -/
theorem tail0 (c : Dev nD) : Pipeline.afterTail₀ cfgs (dats m) 0 (V0 m) [hostOps1] c main_v75
    = result0 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_out0, final2, found_P, found_S]
  exact out0_of_kernel _ _ _ _ _ _
theorem tail1 (c : Dev nD) : Pipeline.afterTail₀ cfgs (dats m) 0 (V0 m) [hostOps1] c main_v61
    = result1 (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [tail_out1, final3, found_P, found_S]
  exact newL_of_kernel _ _ _ _ _ _

/-- Every weakly fair execution terminates with the two results at these functions of the arguments, the arguments
    as launched. -/
theorem run : θ_run defs (onTc (τ := τ) (main (F := Ideal))) ⟨m, fun _ => 0, ρ⟩ (fun r => ∀ c : Dev nD,
      r.2.mem ((c.tc : Thread nD τ).loc main_v75)
        = result0 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_v61)
        = result1 (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨((h c).2 main_v75 (Pipeline.mem_restRefs_of main_v75 (by decide) (by decide))).trans (tail0 m c),
     ((h c).2 main_v61 (Pipeline.mem_restRefs_of main_v61 (by decide) (by decide))).trans (tail1 m c),
     ((h c).2 main_arg0 (Pipeline.mem_restRefs_of main_arg0 (by decide) (by decide))).trans (arg_kept m (dats m) c main_arg0 (by simp) (by decide)),
     ((h c).2 main_arg1 (Pipeline.mem_restRefs_of main_arg1 (by decide) (by decide))).trans (arg_kept m (dats m) c main_arg1 (by simp) (by decide)),
     ((h c).2 main_arg2 (Pipeline.mem_restRefs_of main_arg2 (by decide) (by decide))).trans (arg_kept m (dats m) c main_arg2 (by simp) (by decide)),
     ((h c).2 main_arg3 (Pipeline.mem_restRefs_of main_arg3 (by decide) (by decide))).trans (arg_kept m (dats m) c main_arg3 (by simp) (by decide)),
     ((h c).2 main_arg4 (Pipeline.mem_restRefs_of main_arg4 (by decide) (by decide))).trans (arg_kept m (dats m) c main_arg4 (by simp) (by decide)),
     ((h c).2 main_arg5 (Pipeline.mem_restRefs_of main_arg5 (by decide) (by decide))).trans (arg_kept m (dats m) c main_arg5 (by simp) (by decide))⟩)
    (run_main m ρ)

end Cert.KernelIdeal.ValueRun

end
-- ==== Proof.RefIsSpec.lean ====
/-
  The reference program computes the per-edge specification.

  The reference gathers, for every edge e, the positions of its two endpoints (two [E,3] arrays), their inverse
  masses and their compliances (four [E,1] columns), and from these, the multipliers and the rest lengths it forms,
  entry by entry,
    the squared length   ∑ k, (pi k - pj k) · (pi k - pj k)     (a sum over the three components, started at 0),
    the length           its square root,
    the mean compliance  (ci + cj) · ½,
    the mass sum         wi + wj, with +∞ where the sum is 0,
    the update           δ = (-(dist - d0) - a · l) / (s + a),
    the new multiplier   l + δ,
    the correction       δ · ((pi k - pj k) / dist),
    the node updates     wi · corr k   and   (-wj) · corr k.
  A column [E,1] spread over the three components reads, at (e, k), the column at (e, 0). Below each stage is read at
  an index (e, k) or (e, 0) and identified with the scalar of the same name in the specification. The eight gathered
  arrays are never opened: two further gathers of the inverse masses use the same index column as the first two and
  are the same arrays.
-/
import proofs.«162554_j12610023981116_1_alg».proof.Proof.Gen.ReferenceIdeal.Read
import proofs.«162554_j12610023981116_1_alg».proof.Proof.EdgeSpec
import Idealize.ShloMosaic.Lib.ValueIdx
import Idealize.ShloMosaic.Lib.ValueLayout
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx Cert.EdgeSpec

variable (x0 : (⟨S1000000x3, .f32⟩ : BufTy).Contents (Elt Ideal)) (x1 : (⟨S8000000x1, .f32⟩ : BufTy).Contents (Elt Ideal))
  (x2 x3 : (⟨S1000000x1, .f32⟩ : BufTy).Contents (Elt Ideal)) (x4 : (⟨S8000000x2, .i32⟩ : BufTy).Contents (Elt Ideal))
  (x5 : (⟨S8000000x1, .f32⟩ : BufTy).Contents (Elt Ideal))

/-! ## The inverse masses gathered a second time -/

/-- The first endpoints' inverse masses, gathered again through the same (wrapped) first index column. -/
theorem gatherW_again_i : val_main_v72 (F := Ideal) x2 x4 = val_main_v46 (F := Ideal) x2 x4 := by
  unfold val_main_v72 val_main_v71 val_main_v70 val_main_v67 val_main_v69 val_main_v66 val_main_v68 val_main_c_13 val_main_c_14
    val_main_v46 val_main_v45 val_main_v44 val_main_v41 val_main_v43 val_main_v40 val_main_v42 val_main_c_7 val_main_c_8
  rfl

/-- The second endpoints' inverse masses, gathered again through the same (wrapped) second index column. -/
theorem gatherW_again_j : val_main_v88 (F := Ideal) x2 x4 = val_main_v53 (F := Ideal) x2 x4 := by
  unfold val_main_v88 val_main_v87 val_main_v86 val_main_v83 val_main_v85 val_main_v82 val_main_v84 val_main_c_17 val_main_c_18
    val_main_v53 val_main_v52 val_main_v51 val_main_v48 val_main_v50 val_main_v47 val_main_v49 val_main_c_9 val_main_c_10
  rfl

/-! ## A column spread over the three components reads the column at (e, 0) -/

theorem spread_dist (e : Fin 8000000) (k : Fin 3) : idx_main_v21 (ix2 e k) = ix2 e (0 : Fin 1) :=
  funext fun a => Fin.ext (by match a with | ⟨0, _⟩ => rfl | ⟨1, _⟩ => rfl)

theorem spread_delta (e : Fin 8000000) (k : Fin 3) : idx_main_v64 (ix2 e k) = ix2 e (0 : Fin 1) :=
  funext fun a => Fin.ext (by match a with | ⟨0, _⟩ => rfl | ⟨1, _⟩ => rfl)

theorem spread_wi (e : Fin 8000000) (k : Fin 3) : idx_main_v73 (ix2 e k) = ix2 e (0 : Fin 1) :=
  funext fun a => Fin.ext (by match a with | ⟨0, _⟩ => rfl | ⟨1, _⟩ => rfl)

theorem spread_wj (e : Fin 8000000) (k : Fin 3) : idx_main_v90 (ix2 e k) = ix2 e (0 : Fin 1) :=
  funext fun a => Fin.ext (by match a with | ⟨0, _⟩ => rfl | ⟨1, _⟩ => rfl)

/-- The k-th summand of edge e's squared length sits at (e, k). -/
theorem summand_ix (e : Fin 8000000) (k : Fin 3) :
    idx_main_call0_v1 (idx_main_call0_v2 (ix2 e (0 : Fin 1))) k = ix2 e k :=
  funext fun a => Fin.ext (by match a with | ⟨0, _⟩ => rfl | ⟨1, _⟩ => rfl)

/-! ## The scalars of one edge -/

/-- The squared length: the sum starts at the word 0, which is 0, and runs over the three squared differences. -/
theorem sumsq_read (e : Fin 8000000) :
    val_main_call0_v2 (F := Ideal) x0 x4 (ix2 e (0 : Fin 1))
      = sumsq (row (val_main_v10 (F := Ideal) x0 x4) e) (row (val_main_v17 (F := Ideal) x0 x4) e) := by
  rw [val_main_call0_v2_apply, val_main_call0_v1_apply, val_main_call0_cst_apply, Ideal.ofBits_def, Ideal.ofBits_zero_f32,
    zero_add]
  unfold sumsq row
  refine Finset.sum_congr rfl fun k _ => ?_
  rw [summand_ix, val_main_call0_v0_apply, val_main_v18_apply]
  rfl

/-- The length. -/
theorem dist_read (e : Fin 8000000) :
    val_main_v19 (F := Ideal) x0 x4 (ix2 e (0 : Fin 1))
      = dist (row (val_main_v10 (F := Ideal) x0 x4) e) (row (val_main_v17 (F := Ideal) x0 x4) e) := by
  rw [val_main_v19_apply, sumsq_read]
  rfl

/-- The mean compliance. -/
theorem compl_read (e : Fin 8000000) :
    val_main_v39 (F := Ideal) x3 x4 (ix2 e (0 : Fin 1))
      = compl (at1 (val_main_v29 (F := Ideal) x3 x4) e) (at1 (val_main_v36 (F := Ideal) x3 x4) e) := by
  rw [val_main_v39_apply, val_main_v37_apply, val_main_v38_apply, val_main_cst_apply]
  rfl

/-- The mass sum, +∞ in place of 0. -/
theorem wsum_read (e : Fin 8000000) :
    val_main_v57 (F := Ideal) x2 x4 (ix2 e (0 : Fin 1))
      = wsum (at1 (val_main_v46 (F := Ideal) x2 x4) e) (at1 (val_main_v53 (F := Ideal) x2 x4) e) := by
  rw [val_main_v57_apply, val_main_v56_apply, val_main_v54_apply, val_main_v55_apply, val_main_cst_11_apply,
    val_main_call1_v1_apply, val_main_call1_v0_apply, val_main_cst_12_apply]
  rfl

/-- The multiplier's update δ. -/
theorem ldelta_read (e : Fin 8000000) :
    val_main_v62 (F := Ideal) x0 x1 x2 x3 x4 x5 (ix2 e (0 : Fin 1))
      = ldelta (row (val_main_v10 (F := Ideal) x0 x4) e) (row (val_main_v17 (F := Ideal) x0 x4) e)
          (at1 (val_main_v46 (F := Ideal) x2 x4) e) (at1 (val_main_v53 (F := Ideal) x2 x4) e)
          (at1 (val_main_v29 (F := Ideal) x3 x4) e) (at1 (val_main_v36 (F := Ideal) x3 x4) e) (at1 x1 e) (at1 x5 e) := by
  rw [val_main_v62_apply, val_main_v60_apply, val_main_v58_apply, val_main_v20_apply, val_main_v59_apply,
    val_main_v61_apply, dist_read, compl_read, wsum_read]
  rfl

/-- The correction along component k. -/
theorem corr_read (e : Fin 8000000) (k : Fin 3) :
    val_main_v65 (F := Ideal) x0 x1 x2 x3 x4 x5 (ix2 e k)
      = corr (row (val_main_v10 (F := Ideal) x0 x4) e) (row (val_main_v17 (F := Ideal) x0 x4) e)
          (at1 (val_main_v46 (F := Ideal) x2 x4) e) (at1 (val_main_v53 (F := Ideal) x2 x4) e)
          (at1 (val_main_v29 (F := Ideal) x3 x4) e) (at1 (val_main_v36 (F := Ideal) x3 x4) e) (at1 x1 e) (at1 x5 e) k := by
  rw [val_main_v65_apply, val_main_v64_apply, spread_delta, ldelta_read, val_main_v22_apply, val_main_v21_apply,
    spread_dist, dist_read, val_main_v18_apply]
  rfl

/-! ## The three edge-indexed results, and the scattered positions -/

/-- The new multipliers. -/
theorem ref_newL : val_main_v63 (F := Ideal) x0 x1 x2 x3 x4 x5
    = newL (val_main_v10 (F := Ideal) x0 x4) (val_main_v17 (F := Ideal) x0 x4) (val_main_v46 (F := Ideal) x2 x4)
        (val_main_v53 (F := Ideal) x2 x4) (val_main_v29 (F := Ideal) x3 x4) (val_main_v36 (F := Ideal) x3 x4) x1 x5 := by
  funext j
  obtain ⟨e, k, rfl⟩ : ∃ (e : Fin 8000000) (k : Fin 1), j = ix2 e k := ⟨j 0, j 1, eq_ix2 j⟩
  obtain rfl : k = 0 := Subsingleton.elim _ _
  rw [newL_ix2, val_main_v63_apply, ldelta_read]
  rfl

/-- The first endpoints' updates. -/
theorem ref_updI : val_main_v74 (F := Ideal) x0 x1 x2 x3 x4 x5
    = updIArr (val_main_v10 (F := Ideal) x0 x4) (val_main_v17 (F := Ideal) x0 x4) (val_main_v46 (F := Ideal) x2 x4)
        (val_main_v53 (F := Ideal) x2 x4) (val_main_v29 (F := Ideal) x3 x4) (val_main_v36 (F := Ideal) x3 x4) x1 x5 := by
  funext j
  obtain ⟨e, k, rfl⟩ : ∃ (e : Fin 8000000) (k : Fin 3), j = ix2 e k := ⟨j 0, j 1, eq_ix2 j⟩
  rw [updIArr_ix2, val_main_v74_apply, val_main_v73_apply, spread_wi, gatherW_again_i, corr_read]
  rfl

/-- The second endpoints' updates. -/
theorem ref_updJ : val_main_v91 (F := Ideal) x0 x1 x2 x3 x4 x5
    = updJArr (val_main_v10 (F := Ideal) x0 x4) (val_main_v17 (F := Ideal) x0 x4) (val_main_v46 (F := Ideal) x2 x4)
        (val_main_v53 (F := Ideal) x2 x4) (val_main_v29 (F := Ideal) x3 x4) (val_main_v36 (F := Ideal) x3 x4) x1 x5 := by
  funext j
  obtain ⟨e, k, rfl⟩ : ∃ (e : Fin 8000000) (k : Fin 3), j = ix2 e k := ⟨j 0, j 1, eq_ix2 j⟩
  rw [updJArr_ix2, val_main_v91_apply, val_main_v90_apply, spread_wj, val_main_v89_apply, gatherW_again_j, corr_read]
  rfl

/-- The new positions: the old ones with the first endpoints' updates, then the second endpoints', added in. -/
theorem ref_out0 : val_main_v98 (F := Ideal) x0 x1 x2 x3 x4 x5
    = Host.scatterAdd (F := Ideal) (φ := .f32) scatter_S1000000x3_S8000000x1_S8000000x3_1_0_0_1
        (Host.scatterAdd (F := Ideal) (φ := .f32) scatter_S1000000x3_S8000000x1_S8000000x3_1_0_0_1 x0 (val_main_v80 (F := Ideal) x4)
          (updIArr (val_main_v10 (F := Ideal) x0 x4) (val_main_v17 (F := Ideal) x0 x4) (val_main_v46 (F := Ideal) x2 x4)
            (val_main_v53 (F := Ideal) x2 x4) (val_main_v29 (F := Ideal) x3 x4) (val_main_v36 (F := Ideal) x3 x4) x1 x5))
        (val_main_v97 (F := Ideal) x4)
        (updJArr (val_main_v10 (F := Ideal) x0 x4) (val_main_v17 (F := Ideal) x0 x4) (val_main_v46 (F := Ideal) x2 x4)
          (val_main_v53 (F := Ideal) x2 x4) (val_main_v29 (F := Ideal) x3 x4) (val_main_v36 (F := Ideal) x3 x4) x1 x5) := by
  unfold val_main_v98 val_main_v81
  rw [ref_updI, ref_updJ]

end Cert.ReferenceIdeal.RefValue

end
-- ==== Proof.SameTerms.lean ====
/-
  The two programs spell the same host terms.

  Both programs read the edges' node numbers off the two columns of the [E,2] integer array, wrap the negative ones by
  the node count, and gather rows of the node tables at the resulting [E,1] column of start indices; both add updates
  into the positions with the same scatter. Each program spells these with its own shape names, its own records of
  dimension numbers and its own side conditions. The shape names stand for the same literals, the records have the
  same fields, and a side condition is a proposition, of which any two proofs are equal. So each of the kernel
  program's host terms is, as a term, the reference's stage of the same meaning.
-/
import proofs.«162554_j12610023981116_1_alg».proof.Proof.HostTerms
import proofs.«162554_j12610023981116_1_alg».proof.Proof.Gen.ReferenceIdeal.Read

noncomputable section

namespace Cert.SameTerms

open Cert.KernelIdeal.HostTerms Cert.ReferenceIdeal.Read Idealize.ShloMosaic

/-! ## The records of dimension numbers -/

theorem gatherRec3 : Cert.KernelIdeal.gather_S1000000x3_S8000000x1_S8000000x3_1_0_n_n_0_1_13
    = Cert.ReferenceIdeal.gather_S1000000x3_S8000000x1_S8000000x3_1_0_n_n_0_1_13 := rfl

theorem gatherRec1 : Cert.KernelIdeal.gather_S1000000x1_S8000000x1_S8000000x1_1_0_n_n_0_1_11
    = Cert.ReferenceIdeal.gather_S1000000x1_S8000000x1_S8000000x1_1_0_n_n_0_1_11 := rfl

theorem scatterRec : Cert.KernelIdeal.scatter_S1000000x3_S8000000x1_S8000000x3_1_0_0_1
    = Cert.ReferenceIdeal.scatter_S1000000x3_S8000000x1_S8000000x3_1_0_0_1 := rfl

variable (a0 : (⟨Cert.KernelIdeal.S1000000x3, .f32⟩ : BufTy).Contents (Elt Ideal))
  (a2 a3 : (⟨Cert.KernelIdeal.S1000000x1, .f32⟩ : BufTy).Contents (Elt Ideal))
  (a4 : (⟨Cert.KernelIdeal.S8000000x2, .i32⟩ : BufTy).Contents (Elt Ideal))

/-! ## The wrapped columns of start indices -/

/-- The first scatter's start indices: the first node numbers, wrapped. -/
theorem startI : wrap (nodeI a4) = val_main_v80 (F := Ideal) a4 := rfl

/-- The second scatter's start indices: the second node numbers, wrapped. -/
theorem startJ : wrap (nodeJ a4) = val_main_v97 (F := Ideal) a4 := rfl

/-! ## The six gathered arrays -/

/-- The first endpoints' positions. -/
theorem posI : rows3 a0 (wrap (nodeI a4)) = val_main_v10 (F := Ideal) a0 a4 := rfl

/-- The second endpoints' positions. -/
theorem posJ : rows3 a0 (wrap (nodeJ a4)) = val_main_v17 (F := Ideal) a0 a4 := rfl

/-- The first endpoints' inverse masses. -/
theorem massI : rows1 a2 (wrap (nodeI a4)) = val_main_v46 (F := Ideal) a2 a4 := rfl

/-- The second endpoints' inverse masses. -/
theorem massJ : rows1 a2 (wrap (nodeJ a4)) = val_main_v53 (F := Ideal) a2 a4 := rfl

/-- The first endpoints' compliances. -/
theorem complI : rows1 a3 (wrap (nodeI a4)) = val_main_v29 (F := Ideal) a3 a4 := rfl

/-- The second endpoints' compliances. -/
theorem complJ : rows1 a3 (wrap (nodeJ a4)) = val_main_v36 (F := Ideal) a3 a4 := rfl

end Cert.SameTerms

end
-- ==== Proof.lean ====
/-
  Both programs compute, per edge, the same update of the constraint's multiplier and the same two node
  corrections, and scatter-add the corrections at the same nodes.

  The kernel program gathers the endpoints' data on the host, lays it out with edges along the columns of two [6,E]
  arrays, updates the 250 column blocks of 32000 edges in a pipelined region (each block one pure function of the
  two input blocks), and transposes back before the scatter-adds; the reference computes the same per-edge formulas
  on [E,3] and [E,1] arrays directly. At the extended reals a negation written 0 − x is −x, a sum of three terms from
  the accumulator 0 is the sum, and the two programs' divisions, square roots and comparisons are the same
  functions; so, edge by edge, the new multiplier and the two updates agree, and the scatter-adds are applied to
  equal arrays at equal indices. No algebraic law beyond 0 + x = x and 0 − x = −x is used, and the finiteness of the
  inputs is not needed.

  The frames: each kernel program's run is the run of its region between the two stretches of host lines, and none
  of these writes an argument array; the reference is a straight line of host operations.
  The idealization rewrote nothing, so there is nothing to preserve.
-/
import proofs.«162554_j12610023981116_1_alg».proof.Defs
import proofs.«162554_j12610023981116_1_alg».proof.Proof.Gen.Kernel
import proofs.«162554_j12610023981116_1_alg».proof.Proof.Gen.KernelIdeal
import proofs.«162554_j12610023981116_1_alg».proof.Proof.Gen.ReferenceIdeal
import proofs.«162554_j12610023981116_1_alg».proof.Proof.Gen.ReferenceIdeal.Run
import proofs.«162554_j12610023981116_1_alg».proof.Proof.Gen.ReferenceIdeal.Read
import proofs.«162554_j12610023981116_1_alg».proof.Proof.Gen.Pre_finite_inputs
import proofs.«162554_j12610023981116_1_alg».proof.Proof.AroundBits
import proofs.«162554_j12610023981116_1_alg».proof.Proof.AroundIdeal
import proofs.«162554_j12610023981116_1_alg».proof.Proof.KernelRun
import proofs.«162554_j12610023981116_1_alg».proof.Proof.RefIsSpec
import proofs.«162554_j12610023981116_1_alg».proof.Proof.SameTerms
import Idealize.ShloMosaic.Adequacy
import Idealize.ShloMosaic.Init

noncomputable section

namespace Cert.Proof

open Idealize.ShloMosaic Idealize.SL.Sem

/-! ## The reference's results in the kernel program's spelling -/

section Same

open Cert.KernelIdeal Cert.KernelIdeal.HostTerms Cert.KernelIdeal.ValueRun Cert.SameTerms Cert.EdgeSpec

variable (a0 : (⟨S1000000x3, .f32⟩ : BufTy).Contents (Elt Ideal)) (a1 : (⟨S8000000x1, .f32⟩ : BufTy).Contents (Elt Ideal))
  (a2 a3 : (⟨S1000000x1, .f32⟩ : BufTy).Contents (Elt Ideal)) (a4 : (⟨S8000000x2, .i32⟩ : BufTy).Contents (Elt Ideal))
  (a5 : (⟨S8000000x1, .f32⟩ : BufTy).Contents (Elt Ideal))

/-- The reference's new multipliers are the kernel program's: the same per-edge function of the same gathered arrays. -/
theorem ref_result1 : Cert.ReferenceIdeal.Read.val_main_v63 (F := Ideal) a0 a1 a2 a3 a4 a5 = result1 a0 a1 a2 a3 a4 a5 := by
  rw [Cert.ReferenceIdeal.RefValue.ref_newL]
  unfold result1
  rw [posI, posJ, massI, massJ, complI, complJ]

/-- And so are the scatter-added positions. -/
theorem ref_result0 : Cert.ReferenceIdeal.Read.val_main_v98 (F := Ideal) a0 a1 a2 a3 a4 a5 = result0 a0 a1 a2 a3 a4 a5 := by
  rw [Cert.ReferenceIdeal.RefValue.ref_out0]
  unfold result0
  rw [posI, posJ, massI, massJ, complI, complJ, startI, startJ, scatterRec]

end Same

/-! ## The claims -/

theorem frame_k : Cert.frame_Kernel := fun m ρ _ => Cert.Kernel.Around.frame (F := Bits) m ρ

theorem frame_ki : Cert.frame_KernelIdeal := fun m ρ _ => Cert.KernelIdeal.Around.frame (F := Ideal) m ρ

theorem frame_ri : Cert.frame_ReferenceIdeal := fun m ρ _ =>
  (θ_run Cert.ReferenceIdeal.defs _ _).mono (fun _ h c => (h c).2.2) (Cert.ReferenceIdeal.Value.run (F := Ideal) m ρ)

theorem preserves : Cert.preserves_Kernel_KernelIdeal := trivial

theorem algebraic : Cert.algebraic_KernelIdeal_ReferenceIdeal := by
  intro m ρ m' ρ' _ hagree
  refine ⟨_, _, Cert.KernelIdeal.ValueRun.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v98_eq, (hagree c).1, (hagree c).2.1, (hagree c).2.2.1, (hagree c).2.2.2.1,
      (hagree c).2.2.2.2.1, (hagree c).2.2.2.2.2]
    exact ref_result0 _ _ _ _ _ _
  · rw [Cert.ReferenceIdeal.Read.val_main_v63_eq, (hagree c).1, (hagree c).2.1, (hagree c).2.2.1, (hagree c).2.2.2.1,
      (hagree c).2.2.2.2.1, (hagree c).2.2.2.2.2]
    exact ref_result1 _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
